-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x17 : Shape := ⟨2, ![4000000, 17]⟩
abbrev S15x17 : Shape := ⟨2, ![15, 17]⟩
abbrev S15 : Shape := ⟨1, ![15]⟩
abbrev S15x15 : Shape := ⟨2, ![15, 15]⟩
abbrev S1x15 : Shape := ⟨2, ![1, 15]⟩
abbrev S1 : Shape := ⟨1, ![1]⟩
abbrev S_ : Shape := ⟨0, ![]⟩

class Facts : Prop where
  bcast_S_S4000000x17 : S_.BroadcastsInDim S4000000x17 (![] : Fin 0 → Fin S4000000x17.rank)
  reducesTo_S4000000x17_S_d0_1 : S4000000x17.ReducesTo [0, 1] S_
  h_S_ : 0 < S_.numel
  bcast_S_S15x17 : S_.BroadcastsInDim S15x17 (![] : Fin 0 → Fin S15x17.rank)
  reducesTo_S15x17_S_d0_1 : S15x17.ReducesTo [0, 1] S_
  bcast_S_S15 : S_.BroadcastsInDim S15 (![] : Fin 0 → Fin S15.rank)
  reducesTo_S15_S_d0 : S15.ReducesTo [0] S_
  bcast_S_S15x15 : S_.BroadcastsInDim S15x15 (![] : Fin 0 → Fin S15x15.rank)
  reducesTo_S15x15_S_d0_1 : S15x15.ReducesTo [0, 1] S_
  bcast_S_S1x15 : S_.BroadcastsInDim S1x15 (![] : Fin 0 → Fin S1x15.rank)
  reducesTo_S1x15_S_d0_1 : S1x15.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S15x15 .f32) (main_arg12 : FVec F S15 .f32) (main_arg13 : FVec F S1x15 .f32) (main_arg14 : FVec F S1 .f32) (main_v48 : IVec S_ 1) (main_v49 : FVec F S15 .f32) (main_v50 : FVec F S15 .f32) : IVec S_ 1 :=
  let main_v51 : IVec S15 1 := cmpf .olt main_v49 main_v50
  let main_c_19 : IVec S_ 1 := constantI S_ 1 1#1
  let main_v52 : IVec S_ 1 := (fun x v => Host.reduce IntOp.andi x v reducesTo_S15_S_d0 h_S_) main_v51 main_c_19
  let main_v53 : IVec S_ 1 := andi main_v48 main_v52
  let main_v54 : FVec F S15x15 .f32 := Host.absf main_arg11
  let main_cst_20 : FVec F S_ .f32 := constant S_ .f32 0x7F800000#32
  let main_v55 : FVec F S15x15 .f32 := broadcastInDim S15x15 ![] bcast_S_S15x15 main_cst_20
  let main_v56 : IVec S15x15 1 := cmpf .olt main_v54 main_v55
  let main_c_21 : IVec S_ 1 := constantI S_ 1 1#1
  let main_v57 : IVec S_ 1 := (fun x v => Host.reduce IntOp.andi x v reducesTo_S15x15_S_d0_1 h_S_) main_v56 main_c_21
  let main_v58 : IVec S_ 1 := andi main_v53 main_v57
  let main_v59 : FVec F S15 .f32 := Host.absf main_arg12
  let main_cst_22 : FVec F S_ .f32 := constant S_ .f32 0x7F800000#32
  let main_v60 : FVec F S15 .f32 := broadcastInDim S15 ![] bcast_S_S15 main_cst_22
  let main_v61 : IVec S15 1 := cmpf .olt main_v59 main_v60
  let main_c_23 : IVec S_ 1 := constantI S_ 1 1#1
  let main_v62 : IVec S_ 1 := (fun x v => Host.reduce IntOp.andi x v reducesTo_S15_S_d0 h_S_) main_v61 main_c_23
  let main_v63 : IVec S_ 1 := andi main_v58 main_v62
  let main_v64 : FVec F S1x15 .f32 := Host.absf main_arg13
  let main_cst_24 : FVec F S_ .f32 := constant S_ .f32 0x7F800000#32
  let main_v65 : FVec F S1x15 .f32 := broadcastInDim S1x15 ![] bcast_S_S1x15 main_cst_24
  let main_v66 : IVec S1x15 1 := cmpf .olt main_v64 main_v65
  let main_c_25 : IVec S_ 1 := constantI S_ 1 1#1
  let main_v67 : IVec S_ 1 := (fun x v => Host.reduce IntOp.andi x v reducesTo_S1x15_S_d0_1 h_S_) main_v66 main_c_25
  fn_part4 (F := F) main_arg14 main_v63 main_v67

def fn_part2 {F : FTy → Type} [FloatOps F] (main_arg7 : FVec F S15x15 .f32) (main_arg8 : FVec F S15 .f32) (main_arg9 : FVec F S15x15 .f32) (main_arg10 : FVec F S15 .f32) (main_arg11 : FVec F S15x15 .f32) (main_arg12 : FVec F S15 .f32) (main_arg13 : FVec F S1x15 .f32) (main_arg14 : FVec F S1 .f32) (main_v33 : IVec S_ 1) : IVec S_ 1 :=
  let main_v34 : FVec F S15x15 .f32 := Host.absf main_arg7
  let main_cst_12 : FVec F S_ .f32 := constant S_ .f32 0x7F800000#32
  let main_v35 : FVec F S15x15 .f32 := broadcastInDim S15x15 ![] bcast_S_S15x15 main_cst_12
  let main_v36 : IVec S15x15 1 := cmpf .olt main_v34 main_v35
  let main_c_13 : IVec S_ 1 := constantI S_ 1 1#1
  let main_v37 : IVec S_ 1 := (fun x v => Host.reduce IntOp.andi x v reducesTo_S15x15_S_d0_1 h_S_) main_v36 main_c_13
  let main_v38 : IVec S_ 1 := andi main_v33 main_v37
  let main_v39 : FVec F S15 .f32 := Host.absf main_arg8
  let main_cst_14 : FVec F S_ .f32 := constant S_ .f32 0x7F800000#32
  let main_v40 : FVec F S15 .f32 := broadcastInDim S15 ![] bcast_S_S15 main_cst_14
  let main_v41 : IVec S15 1 := cmpf .olt main_v39 main_v40
  let main_c_15 : IVec S_ 1 := constantI S_ 1 1#1
  let main_v42 : IVec S_ 1 := (fun x v => Host.reduce IntOp.andi x v reducesTo_S15_S_d0 h_S_) main_v41 main_c_15
  let main_v43 : IVec S_ 1 := andi main_v38 main_v42
  let main_v44 : FVec F S15x15 .f32 := Host.absf main_arg9
  let main_cst_16 : FVec F S_ .f32 := constant S_ .f32 0x7F800000#32
  let main_v45 : FVec F S15x15 .f32 := broadcastInDim S15x15 ![] bcast_S_S15x15 main_cst_16
  let main_v46 : IVec S15x15 1 := cmpf .olt main_v44 main_v45
  let main_c_17 : IVec S_ 1 := constantI S_ 1 1#1
  let main_v47 : IVec S_ 1 := (fun x v => Host.reduce IntOp.andi x v reducesTo_S15x15_S_d0_1 h_S_) main_v46 main_c_17
  let main_v48 : IVec S_ 1 := andi main_v43 main_v47
  let main_v49 : FVec F S15 .f32 := Host.absf main_arg10
  let main_cst_18 : FVec F S_ .f32 := constant S_ .f32 0x7F800000#32
  let main_v50 : FVec F S15 .f32 := broadcastInDim S15 ![] bcast_S_S15 main_cst_18
  fn_part3 (F := F) main_arg11 main_arg12 main_arg13 main_arg14 main_v48 main_v49 main_v50

def fn_part1 {F : FTy → Type} [FloatOps F] (main_arg4 : FVec F S15 .f32) (main_arg5 : FVec F S15x15 .f32) (main_arg6 : FVec F S15 .f32) (main_arg7 : FVec F S15x15 .f32) (main_arg8 : FVec F S15 .f32) (main_arg9 : FVec F S15x15 .f32) (main_arg10 : FVec F S15 .f32) (main_arg11 : FVec F S15x15 .f32) (main_arg12 : FVec F S15 .f32) (main_arg13 : FVec F S1x15 .f32) (main_arg14 : FVec F S1 .f32) (main_v13 : IVec S_ 1) (main_v16 : IVec S15x15 1) : IVec S_ 1 :=
  let main_c_5 : IVec S_ 1 := constantI S_ 1 1#1
  let main_v17 : IVec S_ 1 := (fun x v => Host.reduce IntOp.andi x v reducesTo_S15x15_S_d0_1 h_S_) main_v16 main_c_5
  let main_v18 : IVec S_ 1 := andi main_v13 main_v17
  let main_v19 : FVec F S15 .f32 := Host.absf main_arg4
  let main_cst_6 : FVec F S_ .f32 := constant S_ .f32 0x7F800000#32
  let main_v20 : FVec F S15 .f32 := broadcastInDim S15 ![] bcast_S_S15 main_cst_6
  let main_v21 : IVec S15 1 := cmpf .olt main_v19 main_v20
  let main_c_7 : IVec S_ 1 := constantI S_ 1 1#1
  let main_v22 : IVec S_ 1 := (fun x v => Host.reduce IntOp.andi x v reducesTo_S15_S_d0 h_S_) main_v21 main_c_7
  let main_v23 : IVec S_ 1 := andi main_v18 main_v22
  let main_v24 : FVec F S15x15 .f32 := Host.absf main_arg5
  let main_cst_8 : FVec F S_ .f32 := constant S_ .f32 0x7F800000#32
  let main_v25 : FVec F S15x15 .f32 := broadcastInDim S15x15 ![] bcast_S_S15x15 main_cst_8
  let main_v26 : IVec S15x15 1 := cmpf .olt main_v24 main_v25
  let main_c_9 : IVec S_ 1 := constantI S_ 1 1#1
  let main_v27 : IVec S_ 1 := (fun x v => Host.reduce IntOp.andi x v reducesTo_S15x15_S_d0_1 h_S_) main_v26 main_c_9
  let main_v28 : IVec S_ 1 := andi main_v23 main_v27
  let main_v29 : FVec F S15 .f32 := Host.absf main_arg6
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4000000x17 .f32) (main_arg1 : FVec F S15x17 .f32) (main_arg2 : FVec F S15 .f32) (main_arg3 : FVec F S15x15 .f32) (main_arg4 : FVec F S15 .f32) (main_arg5 : FVec F S15x15 .f32) (main_arg6 : FVec F S15 .f32) (main_arg7 : FVec F S15x15 .f32) (main_arg8 : FVec F S15 .f32) (main_arg9 : FVec F S15x15 .f32) (main_arg10 : FVec F S15 .f32) (main_arg11 : FVec F S15x15 .f32) (main_arg12 : FVec F S15 .f32) (main_arg13 : FVec F S1x15 .f32) (main_arg14 : FVec F S1 .f32) : IVec S_ 1 :=
  let main_v0 : FVec F S4000000x17 .f32 := Host.absf main_arg0
  let main_cst : FVec F S_ .f32 := constant S_ .f32 0x7F800000#32
  let main_v1 : FVec F S4000000x17 .f32 := broadcastInDim S4000000x17 ![] bcast_S_S4000000x17 main_cst
  let main_v2 : IVec S4000000x17 1 := cmpf .olt main_v0 main_v1
  let main_c : IVec S_ 1 := constantI S_ 1 1#1
  let main_v3 : IVec S_ 1 := (fun x v => Host.reduce IntOp.andi x v reducesTo_S4000000x17_S_d0_1 h_S_) main_v2 main_c
  let main_v4 : FVec F S15x17 .f32 := Host.absf main_arg1
  let main_cst_0 : FVec F S_ .f32 := constant S_ .f32 0x7F800000#32
  let main_v5 : FVec F S15x17 .f32 := broadcastInDim S15x17 ![] bcast_S_S15x17 main_cst_0
  let main_v6 : IVec S15x17 1 := cmpf .olt main_v4 main_v5
  let main_c_1 : IVec S_ 1 := constantI S_ 1 1#1
  let main_v7 : IVec S_ 1 := (fun x v => Host.reduce IntOp.andi x v reducesTo_S15x17_S_d0_1 h_S_) main_v6 main_c_1
  let main_v8 : IVec S_ 1 := andi main_v3 main_v7
  let main_v9 : FVec F S15 .f32 := Host.absf main_arg2
  let main_cst_2 : FVec F S_ .f32 := constant S_ .f32 0x7F800000#32
  let main_v10 : FVec F S15 .f32 := broadcastInDim S15 ![] bcast_S_S15 main_cst_2
  let main_v11 : IVec S15 1 := cmpf .olt main_v9 main_v10
  let main_c_3 : IVec S_ 1 := constantI S_ 1 1#1
  let main_v12 : IVec S_ 1 := (fun x v => Host.reduce IntOp.andi x v reducesTo_S15_S_d0 h_S_) main_v11 main_c_3
  let main_v13 : IVec S_ 1 := andi main_v8 main_v12
  let main_v14 : FVec F S15x15 .f32 := Host.absf main_arg3
  let main_cst_4 : FVec F S_ .f32 := constant S_ .f32 0x7F800000#32
  let main_v15 : FVec F S15x15 .f32 := broadcastInDim S15x15 ![] bcast_S_S15x15 main_cst_4
  let main_v16 : IVec S15x15 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4000000x17 : Shape := ⟨2, ![4000000, 17]⟩
abbrev S15x17 : Shape := ⟨2, ![15, 17]⟩
abbrev S15 : Shape := ⟨1, ![15]⟩
abbrev S15x15 : Shape := ⟨2, ![15, 15]⟩
abbrev S1x15 : Shape := ⟨2, ![1, 15]⟩
abbrev S1 : Shape := ⟨1, ![1]⟩
abbrev S1x1 : Shape := ⟨2, ![1, 1]⟩
abbrev S4000000x1 : Shape := ⟨2, ![4000000, 1]⟩
abbrev S8192x17 : Shape := ⟨2, ![8192, 17]⟩
abbrev S8192x1 : Shape := ⟨2, ![8192, 1]⟩
abbrev S17x15 : Shape := ⟨2, ![17, 15]⟩
abbrev S8192x15 : Shape := ⟨2, ![8192, 15]⟩
abbrev S15x1 : Shape := ⟨2, ![15, 1]⟩

abbrev nBuf : Space → Nat
  | .hbm => 23
  | .vmem => 18
  | .smem => 0
  | _ => 0

abbrev bufTy : (tb : Table) → Fin (tcTables nBuf tb) → BufTy
  | .hbm, ⟨0, _⟩ => ⟨S4000000x17, .f32⟩
  | .hbm, ⟨1, _⟩ => ⟨S15x17, .f32⟩
  | .hbm, ⟨2, _⟩ => ⟨S15, .f32⟩
  | .hbm, ⟨3, _⟩ => ⟨S15x15, .f32⟩
  | .hbm, ⟨4, _⟩ => ⟨S15, .f32⟩
  | .hbm, ⟨5, _⟩ => ⟨S15x15, .f32⟩
  | .hbm, ⟨6, _⟩ => ⟨S15, .f32⟩
  | .hbm, ⟨7, _⟩ => ⟨S15x15, .f32⟩
  | .hbm, ⟨8, _⟩ => ⟨S15, .f32⟩
  | .hbm, ⟨9, _⟩ => ⟨S15x15, .f32⟩
  | .hbm, ⟨10, _⟩ => ⟨S15, .f32⟩
  | .hbm, ⟨11, _⟩ => ⟨S15x15, .f32⟩
  | .hbm, ⟨12, _⟩ => ⟨S15, .f32⟩
  | .hbm, ⟨13, _⟩ => ⟨S1x15, .f32⟩
  | .hbm, ⟨14, _⟩ => ⟨S1, .f32⟩
  | .hbm, ⟨15, _⟩ => ⟨S1x15, .f32⟩
  | .hbm, ⟨16, _⟩ => ⟨S1x15, .f32⟩
  | .hbm, ⟨17, _⟩ => ⟨S1x15, .f32⟩
  | .hbm, ⟨18, _⟩ => ⟨S1x15, .f32⟩
  | .hbm, ⟨19, _⟩ => ⟨S1x15, .f32⟩
  | .hbm, ⟨20, _⟩ => ⟨S1x15, .f32⟩
  | .hbm, ⟨21, _⟩ => ⟨S1x1, .f32⟩
  | .hbm, ⟨22, _⟩ => ⟨S4000000x1, .f32⟩
  | .local _ .vmem, ⟨0, _⟩ => ⟨S8192x17, .f32⟩
  | .local _ .vmem, ⟨1, _⟩ => ⟨S8192x17, .f32⟩
  | .local _ .vmem, ⟨2, _⟩ => ⟨S15x17, .f32⟩
  | .local _ .vmem, ⟨3, _⟩ => ⟨S1x15, .f32⟩
  | .local _ .vmem, ⟨4, _⟩ => ⟨S15x15, .f32⟩
  | .local _ .vmem, ⟨5, _⟩ => ⟨S1x15, .f32⟩
  | .local _ .vmem, ⟨6, _⟩ => ⟨S15x15, .f32⟩
  | .local _ .vmem, ⟨7, _⟩ => ⟨S1x15, .f32⟩
  | .local _ .vmem, ⟨8, _⟩ => ⟨S15x15, .f32⟩
  | .local _ .vmem, ⟨9, _⟩ => ⟨S1x15, .f32⟩
  | .local _ .vmem, ⟨10, _⟩ => ⟨S15x15, .f32⟩
  | .local _ .vmem, ⟨11, _⟩ => ⟨S1x15, .f32⟩
  | .local _ .vmem, ⟨12, _⟩ => ⟨S15x15, .f32⟩
  | .local _ .vmem, ⟨13, _⟩ => ⟨S1x15, .f32⟩
  | .local _ .vmem, ⟨14, _⟩ => ⟨S1x15, .f32⟩
  | .local _ .vmem, ⟨15, _⟩ => ⟨S1x1, .f32⟩
  | .local _ .vmem, ⟨16, _⟩ => ⟨S8192x1, .f32⟩
  | .local _ .vmem, ⟨17, _⟩ => ⟨S8192x1, .f32⟩
  | _, _ => ⟨S4000000x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x15 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x15 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x15 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S15x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x15 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x15 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8192x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S15_S1x15 : S15.ShapeCasts S1x15
  shapeCasts_S1_S1x1 : S1.ShapeCasts S1x1
  inb_S8192x17_S8192x17_0_0 : ∀ a, (![0, 0] : Fin 2 → Nat) a + S8192x17.size a ≤ S8192x17.size a
  h_S8192x17 : 0 < S8192x17.numel
  bitsLt_bf16_f32 : FTy.bits .bf16 < FTy.bits .f32
  inb_S15x17_S15x17_0_0 : ∀ a, (![0, 0] : Fin 2 → Nat) a + S15x17.size a ≤ S15x17.size a
  h_S15x17 : 0 < S15x17.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  transposes_S15x17_p1_0_S17x15 : S15x17.Transposes [1, 0] S17x15
  broadcasts_S1x15_S8192x15 : S1x15.Broadcasts S8192x15
  inb_S15x15_S15x15_0_0 : ∀ a, (![0, 0] : Fin 2 → Nat) a + S15x15.size a ≤ S15x15.size a
  h_S15x15 : 0 < S15x15.numel
  transposes_S15x15_p1_0_S15x15 : S15x15.Transposes [1, 0] S15x15
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x15_p1_0_S15x1 : S1x15.Transposes [1, 0] S15x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x17_S17x15_S8192x15_1_0_0_1_n_n_wf : DotDims.WF S8192x17 S17x15 S8192x15 [1] [0] [0] [1] [] []
  dot_S8192x15_S15x15_S8192x15_1_0_0_1_n_n_wf : DotDims.WF S8192x15 S15x15 S8192x15 [1] [0] [0] [1] [] []
  dot_S8192x15_S15x1_S8192x1_1_0_0_1_n_n_wf : DotDims.WF S8192x15 S15x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x17.size a < S4000000x17.size a
  hwx0_0 : ∀ i : grid0.Coords, EltTy.bits .f32 = 32 ∨ (Rect.unit (s := S4000000x17) (fun a => cc0_transform_0 i a * S8192x17.size a) (fun a => (Pipeline.Clip.of (cc0_transform_0 i a) (S8192x17.size a) (S4000000x17.size a)).extent (S8192x17.size a)) fun a => Pipeline.Clip.inb (Pipeline.Clip.ok_of (hstart0_0 i a))).WholeWords (EltTy.packing .f32)
  hwxs0_0 : ∀ i : grid0.Coords, EltTy.bits .f32 = 32 ∨ (Rect.unit (s := S8192x17) (fun _ => 0) (fun a => (Pipeline.Clip.of (cc0_transform_0 i a) (S8192x17.size a) (S4000000x17.size a)).extent (S8192x17.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x17.size a ≤ S15x17.size a
  hwx0_1 : ∀ i : grid0.Coords, EltTy.bits .f32 = 32 ∨ (Rect.block (s := S15x17) S15x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x15.size a ≤ S1x15.size a
  hwx0_2 : ∀ i : grid0.Coords, EltTy.bits .f32 = 32 ∨ (Rect.block (s := S1x15) S1x15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x15.size a ≤ S15x15.size a
  hwx0_3 : ∀ i : grid0.Coords, EltTy.bits .f32 = 32 ∨ (Rect.block (s := S15x15) S15x15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x15.size a ≤ S1x15.size a
  hwx0_4 : ∀ i : grid0.Coords, EltTy.bits .f32 = 32 ∨ (Rect.block (s := S1x15) S1x15.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x15.size a ≤ S15x15.size a
  hwx0_5 : ∀ i : grid0.Coords, EltTy.bits .f32 = 32 ∨ (Rect.block (s := S15x15) S15x15.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x15.size a ≤ S1x15.size a
  hwx0_6 : ∀ i : grid0.Coords, EltTy.bits .f32 = 32 ∨ (Rect.block (s := S1x15) S1x15.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x15.size a ≤ S15x15.size a
  hwx0_7 : ∀ i : grid0.Coords, EltTy.bits .f32 = 32 ∨ (Rect.block (s := S15x15) S15x15.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x15.size a ≤ S1x15.size a
  hwx0_8 : ∀ i : grid0.Coords, EltTy.bits .f32 = 32 ∨ (Rect.block (s := S1x15) S1x15.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S15x15.size a ≤ S15x15.size a
  hwx0_9 : ∀ i : grid0.Coords, EltTy.bits .f32 = 32 ∨ (Rect.block (s := S15x15) S15x15.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x15.size a ≤ S1x15.size a
  hwx0_10 : ∀ i : grid0.Coords, EltTy.bits .f32 = 32 ∨ (Rect.block (s := S1x15) S1x15.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S15x15.size a ≤ S15x15.size a
  hwx0_11 : ∀ i : grid0.Coords, EltTy.bits .f32 = 32 ∨ (Rect.block (s := S15x15) S15x15.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x15.size a ≤ S1x15.size a
  hwx0_12 : ∀ i : grid0.Coords, EltTy.bits .f32 = 32 ∨ (Rect.block (s := S1x15) S1x15.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x15.size a ≤ S1x15.size a
  hwx0_13 : ∀ i : grid0.Coords, EltTy.bits .f32 = 32 ∨ (Rect.block (s := S1x15) S1x15.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S8192x1.size a < S4000000x1.size a
  hwx0_15 : ∀ i : grid0.Coords, EltTy.bits .f32 = 32 ∨ (Rect.unit (s := S4000000x1) (fun a => cc0_transform_15 i a * S8192x1.size a) (fun a => (Pipeline.Clip.of (cc0_transform_15 i a) (S8192x1.size a) (S4000000x1.size a)).extent (S8192x1.size a)) fun a => Pipeline.Clip.inb (Pipeline.Clip.ok_of (hstart0_15 i a))).WholeWords (EltTy.packing .f32)
  hwxs0_15 : ∀ i : grid0.Coords, EltTy.bits .f32 = 32 ∨ (Rect.unit (s := S8192x1) (fun _ => 0) (fun a => (Pipeline.Clip.of (cc0_transform_15 i a) (S8192x1.size a) (S4000000x1.size a)).extent (S8192x1.size a)) fun a => (Nat.zero_add _).trans_le (Pipeline.Clip.extent_le (Pipeline.Clip.ok_of (hstart0_15 i a)))).WholeWords (EltTy.packing .f32)

variable [Facts₀]

def dot_S8192x17_S17x15_S8192x15_1_0_0_1_n_n : DotDims S8192x17 S17x15 S8192x15 where
  lhsContracting := [1]
  rhsContracting := [0]
  lhsNonContracting := [0]
  rhsNonContracting := [1]
  lhsBatch := []
  rhsBatch := []
  wf := dot_S8192x17_S17x15_S8192x15_1_0_0_1_n_n_wf
def dot_S8192x15_S15x15_S8192x15_1_0_0_1_n_n : DotDims S8192x15 S15x15 S8192x15 where
  lhsContracting := [1]
  rhsContracting := [0]
  lhsNonContracting := [0]
  rhsNonContracting := [1]
  lhsBatch := []
  rhsBatch := []
  wf := dot_S8192x15_S15x15_S8192x15_1_0_0_1_n_n_wf
def dot_S8192x15_S15x1_S8192x1_1_0_0_1_n_n : DotDims S8192x15 S15x1 S8192x1 where
  lhsContracting := [1]
  rhsContracting := [0]
  lhsNonContracting := [0]
  rhsNonContracting := [1]
  lhsBatch := []
  rhsBatch := []
  wf := dot_S8192x15_S15x1_S8192x1_1_0_0_1_n_n_wf

abbrev win0_0 : Pipeline.Window sig grid0 :=
  Pipeline.Window.ofSpecClip (Memref.whole main_arg0) S8192x17.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S15x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S15x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x15.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S15x15.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x15.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S15x15.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x15.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S15x15.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x15.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S15x15.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x15.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x15.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpecClip (Memref.whole main_v7) S8192x1.size cc0_transform_15 reads0_15 true false 2 stage0_15 sem0_15
    hrank0 hreads0_15 hstart0_15 nbuf0_15 (Memref.isWhole_whole _) hwx0_15 hwxs0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4000000x17 : Shape := ⟨2, ![4000000, 17]⟩
abbrev S15x17 : Shape := ⟨2, ![15, 17]⟩
abbrev S15 : Shape := ⟨1, ![15]⟩
abbrev S15x15 : Shape := ⟨2, ![15, 15]⟩
abbrev S1x15 : Shape := ⟨2, ![1, 15]⟩
abbrev S1 : Shape := ⟨1, ![1]⟩
abbrev S17x15 : Shape := ⟨2, ![17, 15]⟩
abbrev S4000000x15 : Shape := ⟨2, ![4000000, 15]⟩
abbrev S_ : Shape := ⟨0, ![]⟩
abbrev S15x1 : Shape := ⟨2, ![15, 1]⟩
abbrev S4000000x1 : Shape := ⟨2, ![4000000, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4000000x17, .f32⟩
  | .hbm, ⟨1, _⟩ => ⟨S15x17, .f32⟩
  | .hbm, ⟨2, _⟩ => ⟨S15, .f32⟩
  | .hbm, ⟨3, _⟩ => ⟨S15x15, .f32⟩
  | .hbm, ⟨4, _⟩ => ⟨S15, .f32⟩
  | .hbm, ⟨5, _⟩ => ⟨S15x15, .f32⟩
  | .hbm, ⟨6, _⟩ => ⟨S15, .f32⟩
  | .hbm, ⟨7, _⟩ => ⟨S15x15, .f32⟩
  | .hbm, ⟨8, _⟩ => ⟨S15, .f32⟩
  | .hbm, ⟨9, _⟩ => ⟨S15x15, .f32⟩
  | .hbm, ⟨10, _⟩ => ⟨S15, .f32⟩
  | .hbm, ⟨11, _⟩ => ⟨S15x15, .f32⟩
  | .hbm, ⟨12, _⟩ => ⟨S15, .f32⟩
  | .hbm, ⟨13, _⟩ => ⟨S1x15, .f32⟩
  | .hbm, ⟨14, _⟩ => ⟨S1, .f32⟩
  | .hbm, ⟨15, _⟩ => ⟨S17x15, .f32⟩
  | .hbm, ⟨16, _⟩ => ⟨S4000000x15, .f32⟩
  | .hbm, ⟨17, _⟩ => ⟨S1x15, .f32⟩
  | .hbm, ⟨18, _⟩ => ⟨S4000000x15, .f32⟩
  | .hbm, ⟨19, _⟩ => ⟨S4000000x15, .f32⟩
  | .hbm, ⟨20, _⟩ => ⟨S_, .f32⟩
  | .hbm, ⟨21, _⟩ => ⟨S4000000x15, .f32⟩
  | .hbm, ⟨22, _⟩ => ⟨S4000000x15, .f32⟩
  | .hbm, ⟨23, _⟩ => ⟨S15x15, .f32⟩
  | .hbm, ⟨24, _⟩ => ⟨S4000000x15, .f32⟩
  | .hbm, ⟨25, _⟩ => ⟨S1x15, .f32⟩
  | .hbm, ⟨26, _⟩ => ⟨S4000000x15, .f32⟩
  | .hbm, ⟨27, _⟩ => ⟨S4000000x15, .f32⟩
  | .hbm, ⟨28, _⟩ => ⟨S_, .f32⟩
  | .hbm, ⟨29, _⟩ => ⟨S4000000x15, .f32⟩
  | .hbm, ⟨30, _⟩ => ⟨S4000000x15, .f32⟩
  | .hbm, ⟨31, _⟩ => ⟨S15x15, .f32⟩
  | .hbm, ⟨32, _⟩ => ⟨S4000000x15, .f32⟩
  | .hbm, ⟨33, _⟩ => ⟨S1x15, .f32⟩
  | .hbm, ⟨34, _⟩ => ⟨S4000000x15, .f32⟩
  | .hbm, ⟨35, _⟩ => ⟨S4000000x15, .f32⟩
  | .hbm, ⟨36, _⟩ => ⟨S_, .f32⟩
  | .hbm, ⟨37, _⟩ => ⟨S4000000x15, .f32⟩
  | .hbm, ⟨38, _⟩ => ⟨S4000000x15, .f32⟩
  | .hbm, ⟨39, _⟩ => ⟨S15x15, .f32⟩
  | .hbm, ⟨40, _⟩ => ⟨S4000000x15, .f32⟩
  | .hbm, ⟨41, _⟩ => ⟨S1x15, .f32⟩
  | .hbm, ⟨42, _⟩ => ⟨S4000000x15, .f32⟩
  | .hbm, ⟨43, _⟩ => ⟨S4000000x15, .f32⟩
  | .hbm, ⟨44, _⟩ => ⟨S_, .f32⟩
  | .hbm, ⟨45, _⟩ => ⟨S4000000x15, .f32⟩
  | .hbm, ⟨46, _⟩ => ⟨S4000000x15, .f32⟩
  | .hbm, ⟨47, _⟩ => ⟨S15x15, .f32⟩
  | .hbm, ⟨48, _⟩ => ⟨S4000000x15, .f32⟩
  | .hbm, ⟨49, _⟩ => ⟨S1x15, .f32⟩
  | .hbm, ⟨50, _⟩ => ⟨S4000000x15, .f32⟩
  | .hbm, ⟨51, _⟩ => ⟨S4000000x15, .f32⟩
  | .hbm, ⟨52, _⟩ => ⟨S_, .f32⟩
  | .hbm, ⟨53, _⟩ => ⟨S4000000x15, .f32⟩
  | .hbm, ⟨54, _⟩ => ⟨S4000000x15, .f32⟩
  | .hbm, ⟨55, _⟩ => ⟨S15x15, .f32⟩
  | .hbm, ⟨56, _⟩ => ⟨S4000000x15, .f32⟩
  | .hbm, ⟨57, _⟩ => ⟨S1x15, .f32⟩
  | .hbm, ⟨58, _⟩ => ⟨S4000000x15, .f32⟩
  | .hbm, ⟨59, _⟩ => ⟨S4000000x15, .f32⟩
  | .hbm, ⟨60, _⟩ => ⟨S_, .f32⟩
  | .hbm, ⟨61, _⟩ => ⟨S4000000x15, .f32⟩
  | .hbm, ⟨62, _⟩ => ⟨S4000000x15, .f32⟩
  | .hbm, ⟨63, _⟩ => ⟨S15x1, .f32⟩
  | .hbm, ⟨64, _⟩ => ⟨S4000000x1, .f32⟩
  | .hbm, ⟨65, _⟩ => ⟨S1x1, .f32⟩
  | .hbm, ⟨66, _⟩ => ⟨S4000000x1, .f32⟩
  | .hbm, ⟨67, _⟩ => ⟨S4000000x1, .f32⟩
  | _, _ => ⟨S4000000x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_cst : Ref sig .tc := ⟨.hbm, 44, rfl⟩
abbrev main_call3_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call4_cst : Ref sig .tc := ⟨.hbm, 52, rfl⟩
abbrev main_call4_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call5_cst : Ref sig .tc := ⟨.hbm, 60, rfl⟩
abbrev main_call5_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]

class Facts₀ : Prop where
  transposes_S15x17_S17x15_1_0 : S15x17.Transposes [1, 0] S17x15
  bcast_S15_S1x15_1 : S15.BroadcastsInDim S1x15 (![1] : Fin 1 → Fin S1x15.rank)
  bcast_S1x15_S4000000x15_0_1 : S1x15.BroadcastsInDim S4000000x15 (![0, 1] : Fin 2 → Fin S4000000x15.rank)
  bcast_S_S4000000x15 : S_.BroadcastsInDim S4000000x15 (![] : Fin 0 → Fin S4000000x15.rank)
  transposes_S15x15_S15x15_1_0 : S15x15.Transposes [1, 0] S15x15
  transposes_S1x15_S15x1_1_0 : S1x15.Transposes [1, 0] S15x1
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  dot_S4000000x17_S17x15_S4000000x15_1_0_0_1_n_n_wf : DotDims.WF S4000000x17 S17x15 S4000000x15 [1] [0] [0] [1] [] []
  dot_S4000000x15_S15x15_S4000000x15_1_0_0_1_n_n_wf : DotDims.WF S4000000x15 S15x15 S4000000x15 [1] [0] [0] [1] [] []
  dot_S4000000x15_S15x1_S4000000x1_1_0_0_1_n_n_wf : DotDims.WF S4000000x15 S15x1 S4000000x1 [1] [0] [0] [1] [] []

variable [Facts₀]

def dot_S4000000x17_S17x15_S4000000x15_1_0_0_1_n_n : DotDims S4000000x17 S17x15 S4000000x15 where
  lhsContracting := [1]
  rhsContracting := [0]
  lhsNonContracting := [0]
  rhsNonContracting := [1]
  lhsBatch := []
  rhsBatch := []
  wf := dot_S4000000x17_S17x15_S4000000x15_1_0_0_1_n_n_wf
def dot_S4000000x15_S15x15_S4000000x15_1_0_0_1_n_n : DotDims S4000000x15 S15x15 S4000000x15 where
  lhsContracting := [1]
  rhsContracting := [0]
  lhsNonContracting := [0]
  rhsNonContracting := [1]
  lhsBatch := []
  rhsBatch := []
  wf := dot_S4000000x15_S15x15_S4000000x15_1_0_0_1_n_n_wf
def dot_S4000000x15_S15x1_S4000000x1_1_0_0_1_n_n : DotDims S4000000x15 S15x1 S4000000x1 where
  lhsContracting := [1]
  rhsContracting := [0]
  lhsNonContracting := [0]
  rhsNonContracting := [1]
  lhsBatch := []
  rhsBatch := []
  wf := dot_S4000000x15_S15x1_S4000000x1_1_0_0_1_n_n_wf

class Facts : Prop extends Facts₀ where

variable [Facts]
-- ==== Proof.KbOut.lean ====
/-
  What one run of the kernel body stores: the payload of its one store as a function of the fifteen blocks it
  loads (the block of x, then weights and biases of the seven layers). Generic in the float instance.
-/
import proofs.«150531_j46153718563335_1_alg».proof.Proof.Gen.Kernel.Skeleton

noncomputable section

namespace Cert.Kernel.Hand

open Cert.Kernel Cert.Kernel.Gen Idealize.ShloMosaic

variable {F : FTy → Type} [FloatOps F]

/-- The stored block (8192 rows, one column) from the loaded blocks: the body's arithmetic, composed. -/
def out (X0 : S8192x17.Idx → Elt F .f32) (X1 : S15x17.Idx → Elt F .f32) (X2 : S1x15.Idx → Elt F .f32)
    (X3 : S15x15.Idx → Elt F .f32) (X4 : S1x15.Idx → Elt F .f32) (X5 : S15x15.Idx → Elt F .f32) (X6 : S1x15.Idx → Elt F .f32)
    (X7 : S15x15.Idx → Elt F .f32) (X8 : S1x15.Idx → Elt F .f32) (X9 : S15x15.Idx → Elt F .f32) (X10 : S1x15.Idx → Elt F .f32)
    (X11 : S15x15.Idx → Elt F .f32) (X12 : S1x15.Idx → Elt F .f32) (X13 : S1x15.Idx → Elt F .f32) (X14 : S1x1.Idx → Elt F .f32) :
    S8192x1.Idx → Elt F .f32 :=
  k0_pay3 (k0_pay1 X0 X1 X2 X3 X4 X5 X6) (k0_pay2 X7) X8 X9 X10 X11 X12 X13 X14

end Cert.Kernel.Hand

end
-- ==== Proof.KbData.lean ====
/-
  The proof data of the one pipeline: at each grid point, what every window's staging buffer holds after the body.
  The block of x at the last point overhangs the array, so only its rows inside the array are named: the buffer is
  the block filled out with the zero word below them. The fourteen weight and bias windows hold their whole arrays at
  every point. The result's buffer holds the body's payload of those.
-/
import proofs.«150531_j46153718563335_1_alg».proof.Proof.KbOut
import proofs.«150531_j46153718563335_1_alg».proof.Proof.Gen.Kernel.Frame

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero word in every entry of a block of x: what fills the rows below the array's end. -/
def zfill : S8192x17.Idx → Elt F .f32 := fun _ => Scalar.ofBits .f32 0#32

/-- The block of x at point t, filled out to the buffer's 8192 rows by d. -/
def xfill (c : Dev nD) (t : Fin cfg0.N) (d : S8192x17.Idx → Elt F .f32) : S8192x17.Idx → Elt F .f32 :=
  win0_0.fill (grid0.coords t) d (iblk m c 0 t)

/-- The payload at point t when the buffer of x holds its block filled out by d. -/
def outAt (c : Dev nD) (t : Fin cfg0.N) (d : S8192x17.Idx → Elt F .f32) : S8192x1.Idx → Elt F .f32 :=
  out (xfill m c t d) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)

/-- The proof data on device c: the arrays as the region finds them; after the body each input buffer at its
    block (x's filled out with zeros) and the result's at the payload; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => xfill m c t zfill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t zfill
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t zfill := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt m c t zfill := by dsimp only [dats]

/-- The buffer of x is fetched at every point: it holds its block, filled out by whatever the overwrite left. -/
theorem before0_0 (c : Dev nD) (t : Fin cfg0.N) (d) : (dats m 0 c).before 0 t d = xfill m c t d := by
  unfold Dat.before; rw [if_pos (fetch0_0 t)]; rfl

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

end Cert.Kernel.Hand

end
-- ==== Proof.KbBody.lean ====
/-
  The kernel body's triple. The body loads its fifteen input buffers whole, computes, and stores one block whole
  into the result's buffer. So from ownership of sixteen whole buffers it runs, without a fault, to the
  continuation holding the fifteen inputs as they were and the result's buffer at the payload of what was loaded;
  what the result's buffer held before is read once and never used. Stated for any whole buffers, then at the
  staging buffers the pipeline hands the body at a point. Generic in the float instance.
-/
import proofs.«150531_j46153718563335_1_alg».proof.Proof.KbOut
import proofs.«150531_j46153718563335_1_alg».proof.Proof.Gen.Kernel.Launch
import proofs.«150531_j46153718563335_1_alg».proof.Proof.Gen.Kernel.Skeleton
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body on any sixteen whole buffers: the inputs at X0 … X14, the result's at anything. The one store covers
    the result's buffer, so what it holds afterwards is the stored block, and a whole load reads a buffer's contents. -/
theorem sound_kernel (c : Dev nD) (E : Set ℕ) (i : grid0.Coords) (arg1 : Memref sig .tc .vmem S8192x17 .f32) (harg1 : arg1.IsWhole) (arg2 : Memref sig .tc .vmem S15x17 .f32) (harg2 : arg2.IsWhole) (arg3 : Memref sig .tc .vmem S1x15 .f32) (harg3 : arg3.IsWhole) (arg4 : Memref sig .tc .vmem S15x15 .f32) (harg4 : arg4.IsWhole) (arg5 : Memref sig .tc .vmem S1x15 .f32) (harg5 : arg5.IsWhole) (arg6 : Memref sig .tc .vmem S15x15 .f32) (harg6 : arg6.IsWhole) (arg7 : Memref sig .tc .vmem S1x15 .f32) (harg7 : arg7.IsWhole) (arg8 : Memref sig .tc .vmem S15x15 .f32) (harg8 : arg8.IsWhole) (arg9 : Memref sig .tc .vmem S1x15 .f32) (harg9 : arg9.IsWhole) (arg10 : Memref sig .tc .vmem S15x15 .f32) (harg10 : arg10.IsWhole) (arg11 : Memref sig .tc .vmem S1x15 .f32) (harg11 : arg11.IsWhole) (arg12 : Memref sig .tc .vmem S15x15 .f32) (harg12 : arg12.IsWhole) (arg13 : Memref sig .tc .vmem S1x15 .f32) (harg13 : arg13.IsWhole) (arg14 : Memref sig .tc .vmem S1x15 .f32) (harg14 : arg14.IsWhole) (arg15 : Memref sig .tc .vmem S1x1 .f32) (harg15 : arg15.IsWhole) (arg16 : Memref sig .tc .vmem S8192x1 .f32) (harg16 : arg16.IsWhole)
    (X0 : S8192x17.Idx → Elt F .f32) (X1 : S15x17.Idx → Elt F .f32) (X2 : S1x15.Idx → Elt F .f32) (X3 : S15x15.Idx → Elt F .f32) (X4 : S1x15.Idx → Elt F .f32) (X5 : S15x15.Idx → Elt F .f32) (X6 : S1x15.Idx → Elt F .f32) (X7 : S15x15.Idx → Elt F .f32) (X8 : S1x15.Idx → Elt F .f32) (X9 : S15x15.Idx → Elt F .f32) (X10 : S1x15.Idx → Elt F .f32) (X11 : S15x15.Idx → Elt F .f32) (X12 : S1x15.Idx → Elt F .f32) (X13 : S1x15.Idx → Elt F .f32) (X14 : S1x1.Idx → Elt F .f32)
    (K : PUnit → sProp 𝕄) :
    iprop(owns (c : Thread nD τ) arg1 fullShare X0 ∗ owns (c : Thread nD τ) arg2 fullShare X1 ∗ owns (c : Thread nD τ) arg3 fullShare X2 ∗ owns (c : Thread nD τ) arg4 fullShare X3 ∗ owns (c : Thread nD τ) arg5 fullShare X4 ∗ owns (c : Thread nD τ) arg6 fullShare X5 ∗ owns (c : Thread nD τ) arg7 fullShare X6 ∗ owns (c : Thread nD τ) arg8 fullShare X7 ∗ owns (c : Thread nD τ) arg9 fullShare X8 ∗ owns (c : Thread nD τ) arg10 fullShare X9 ∗ owns (c : Thread nD τ) arg11 fullShare X10 ∗ owns (c : Thread nD τ) arg12 fullShare X11 ∗ owns (c : Thread nD τ) arg13 fullShare X12 ∗ owns (c : Thread nD τ) arg14 fullShare X13 ∗ owns (c : Thread nD τ) arg15 fullShare X14 ∗ (∃ d, owns (c : Thread nD τ) arg16 fullShare d)
        ∗ (iprop(owns (c : Thread nD τ) arg1 fullShare X0 ∗ owns (c : Thread nD τ) arg2 fullShare X1 ∗ owns (c : Thread nD τ) arg3 fullShare X2 ∗ owns (c : Thread nD τ) arg4 fullShare X3 ∗ owns (c : Thread nD τ) arg5 fullShare X4 ∗ owns (c : Thread nD τ) arg6 fullShare X5 ∗ owns (c : Thread nD τ) arg7 fullShare X6 ∗ owns (c : Thread nD τ) arg8 fullShare X7 ∗ owns (c : Thread nD τ) arg9 fullShare X8 ∗ owns (c : Thread nD τ) arg10 fullShare X9 ∗ owns (c : Thread nD τ) arg11 fullShare X10 ∗ owns (c : Thread nD τ) arg12 fullShare X11 ∗ owns (c : Thread nD τ) arg13 fullShare X12 ∗ owns (c : Thread nD τ) arg14 fullShare X13 ∗ owns (c : Thread nD τ) arg15 fullShare X14 ∗ owns (c : Thread nD τ) arg16 fullShare (out X0 X1 X2 X3 X4 X5 X6 X7 X8 X9 X10 X11 X12 X13 X14)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  have hz : (![0, 0] : Fin 2 → Nat) = fun _ => 0 := funext fun a => by fin_cases a <;> rfl
  rw [View.read_writes_eq_canon _ _ _ (fun y => View.cover_of_tiled [⟨_, _⟩] S8192x1.size (by rfl) y)]
  sl_unfold_words
  rw [View.canon_unit_zero hz]
  simp only [View.readAt_eq_ld, View.ld_unit_zero (S := S8192x17) hz, View.ld_unit_zero (S := S15x17) hz, View.ld_unit_zero (S := S1x15) hz, View.ld_unit_zero (S := S15x15) hz, View.ld_unit_zero (S := S1x1) hz]
  rfl

/-- The same at the staging buffers of a grid point: x's and the result's windows have two each, the others one. -/
theorem sound_body_slots (c : Dev nD) (E : Set ℕ) (i : grid0.Coords) (s0 : Fin 2) (s1 : Fin 1) (s2 : Fin 1) (s3 : Fin 1) (s4 : Fin 1) (s5 : Fin 1) (s6 : Fin 1) (s7 : Fin 1) (s8 : Fin 1) (s9 : Fin 1) (s10 : Fin 1) (s11 : Fin 1) (s12 : Fin 1) (s13 : Fin 1) (s14 : Fin 1) (s15 : Fin 2)
    (X0 : S8192x17.Idx → Elt F .f32) (X1 : S15x17.Idx → Elt F .f32) (X2 : S1x15.Idx → Elt F .f32) (X3 : S15x15.Idx → Elt F .f32) (X4 : S1x15.Idx → Elt F .f32) (X5 : S15x15.Idx → Elt F .f32) (X6 : S1x15.Idx → Elt F .f32) (X7 : S15x15.Idx → Elt F .f32) (X8 : S1x15.Idx → Elt F .f32) (X9 : S15x15.Idx → Elt F .f32) (X10 : S1x15.Idx → Elt F .f32) (X11 : S15x15.Idx → Elt F .f32) (X12 : S1x15.Idx → Elt F .f32) (X13 : S1x15.Idx → Elt F .f32) (X14 : S1x1.Idx → Elt F .f32) (X15 : S8192x1.Idx → Elt F .f32)
    (K : PUnit → sProp 𝕄) :
    iprop((owns (c : Thread nD τ) (stage0_0 s0) fullShare X0 ∗ owns (c : Thread nD τ) (stage0_1 s1) fullShare X1 ∗ owns (c : Thread nD τ) (stage0_2 s2) fullShare X2 ∗ owns (c : Thread nD τ) (stage0_3 s3) fullShare X3 ∗ owns (c : Thread nD τ) (stage0_4 s4) fullShare X4 ∗ owns (c : Thread nD τ) (stage0_5 s5) fullShare X5 ∗ owns (c : Thread nD τ) (stage0_6 s6) fullShare X6 ∗ owns (c : Thread nD τ) (stage0_7 s7) fullShare X7 ∗ owns (c : Thread nD τ) (stage0_8 s8) fullShare X8 ∗ owns (c : Thread nD τ) (stage0_9 s9) fullShare X9 ∗ owns (c : Thread nD τ) (stage0_10 s10) fullShare X10 ∗ owns (c : Thread nD τ) (stage0_11 s11) fullShare X11 ∗ owns (c : Thread nD τ) (stage0_12 s12) fullShare X12 ∗ owns (c : Thread nD τ) (stage0_13 s13) fullShare X13 ∗ owns (c : Thread nD τ) (stage0_14 s14) fullShare X14 ∗ owns (c : Thread nD τ) (stage0_15 s15) fullShare X15)
          ∗ (iprop(owns (c : Thread nD τ) (stage0_0 s0) fullShare X0 ∗ owns (c : Thread nD τ) (stage0_1 s1) fullShare X1 ∗ owns (c : Thread nD τ) (stage0_2 s2) fullShare X2 ∗ owns (c : Thread nD τ) (stage0_3 s3) fullShare X3 ∗ owns (c : Thread nD τ) (stage0_4 s4) fullShare X4 ∗ owns (c : Thread nD τ) (stage0_5 s5) fullShare X5 ∗ owns (c : Thread nD τ) (stage0_6 s6) fullShare X6 ∗ owns (c : Thread nD τ) (stage0_7 s7) fullShare X7 ∗ owns (c : Thread nD τ) (stage0_8 s8) fullShare X8 ∗ owns (c : Thread nD τ) (stage0_9 s9) fullShare X9 ∗ owns (c : Thread nD τ) (stage0_10 s10) fullShare X10 ∗ owns (c : Thread nD τ) (stage0_11 s11) fullShare X11 ∗ owns (c : Thread nD τ) (stage0_12 s12) fullShare X12 ∗ owns (c : Thread nD τ) (stage0_13 s13) fullShare X13 ∗ owns (c : Thread nD τ) (stage0_14 s14) fullShare X14 ∗ owns (c : Thread nD τ) (stage0_15 s15) fullShare (out X0 X1 X2 X3 X4 X5 X6 X7 X8 X9 X10 X11 X12 X13 X14)) -∗ K ⟨⟩))
      ⊢ wp frame (wpE (defs₀ (F := F)) Variants.none c none) E
          (cc0__mlp_kernel i (stage0_0 s0) (hstage0_0 s0) (stage0_1 s1) (hstage0_1 s1) (stage0_2 s2) (hstage0_2 s2) (stage0_3 s3) (hstage0_3 s3) (stage0_4 s4) (hstage0_4 s4) (stage0_5 s5) (hstage0_5 s5) (stage0_6 s6) (hstage0_6 s6) (stage0_7 s7) (hstage0_7 s7) (stage0_8 s8) (hstage0_8 s8) (stage0_9 s9) (hstage0_9 s9) (stage0_10 s10) (hstage0_10 s10) (stage0_11 s11) (hstage0_11 s11) (stage0_12 s12) (hstage0_12 s12) (stage0_13 s13) (hstage0_13 s13) (stage0_14 s14) (hstage0_14 s14) (stage0_15 s15) (hstage0_15 s15)) K := by
  iintro ⟨⟨H0, H1, H2, H3, H4, H5, H6, H7, H8, H9, H10, H11, H12, H13, H14, H15⟩, Hk⟩
  iapply (sound_kernel (F := F) c E i (stage0_0 s0) (hstage0_0 s0) (stage0_1 s1) (hstage0_1 s1) (stage0_2 s2) (hstage0_2 s2) (stage0_3 s3) (hstage0_3 s3) (stage0_4 s4) (hstage0_4 s4) (stage0_5 s5) (hstage0_5 s5) (stage0_6 s6) (hstage0_6 s6) (stage0_7 s7) (hstage0_7 s7) (stage0_8 s8) (hstage0_8 s8) (stage0_9 s9) (hstage0_9 s9) (stage0_10 s10) (hstage0_10 s10) (stage0_11 s11) (hstage0_11 s11) (stage0_12 s12) (hstage0_12 s12) (stage0_13 s13) (hstage0_13 s13) (stage0_14 s14) (hstage0_14 s14) (stage0_15 s15) (hstage0_15 s15)
    X0 X1 X2 X3 X4 X5 X6 X7 X8 X9 X10 X11 X12 X13 X14 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists X15; iexact H15
  iexact Hk

end Cert.Kernel.Hand

end
-- ==== Proof.KbObl.lean ====
/-
  The body obligation of the pipeline: at every grid point the body, handed each window's current buffer at what it
  then holds, leaves each at what the proof data says. The last block of x and of the result overhangs the array, so
  those two buffers are stated on the rows inside the array only. Of the result's buffer nothing at all is stated
  here: the claim proved from this obligation speaks of the argument arrays only.
-/
import proofs.«150531_j46153718563335_1_alg».proof.Proof.KbData
import proofs.«150531_j46153718563335_1_alg».proof.Proof.KbBody
import Idealize.ShloMosaic.Lib.Pipeline.Kit
import Idealize.ShloMosaic.Lib.Tactic

noncomputable section

namespace Cert.Kernel.Hand

open Cert.Kernel Cert.Kernel.Gen Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the body are named nowhere: the result's. -/
def forgets : Fin 16 → Bool := fun w => w.val == 15

/-- What the body is called with at point t: the invariant, nothing owed, and each window's current buffer at what it
    then holds (the result's at anything). -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ X, owns (c : Thread nD τ) (st0_15 t) fullShare X))

/-- What it returns: the two windows whose last block overhangs the array stated on the rows inside the array only, the result's not at all. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ X, owns (c : Thread nD τ) (st0_15 t) fullShare X))

/-- The body at any point. The buffer of x arrives holding its block filled out below the array's end by anything, the
    weights' and biases' buffers their arrays, the result's anything; the body leaves the inputs as they were and the
    result's buffer at the payload, of which nothing is named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14,
    show win0_0.cut (grid0.coords t) (xfill m c t zfill) = iblk m c 0 t from win0_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_body_slots (F := F) c Set.univ (grid0.coords t) (cfg0.slots t 0) (cfg0.slots t 1) (cfg0.slots t 2) (cfg0.slots t 3) (cfg0.slots t 4) (cfg0.slots t 5) (cfg0.slots t 6) (cfg0.slots t 7) (cfg0.slots t 8) (cfg0.slots t 9) (cfg0.slots t 10) (cfg0.slots t 11) (cfg0.slots t 12) (cfg0.slots t 13) (cfg0.slots t 14) (cfg0.slots t 15)
    (xfill m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) d15 _)
  isplitl [H0 H1 H2 H3 H4 H5 H6 H7 H8 H9 H10 H11 H12 H13 H14 H15]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H0, H1, H2, H3, H4, H5, H6, H7, H8, H9, H10, H11, H12, H13, H14, H15⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

/-- The body obligation at every point. -/
theorem body_obligation (c : Dev nD) :
    BodyObligationLoose (dats (F := F) m 0 c) (defs₀ (F := F)) Variants.none () Set.univ forgets := fun t => by
  rw [bigSep_W0, bigSep_W0]
  exact sound_body m c t

end Cert.Kernel.Hand

end
-- ==== Proof.KbRun.lean ====
/-
  The run of the whole program from the body obligation: the host operations before the region, the region at every
  grid point, the write-backs. Read at the argument arrays: the frame.
-/
import proofs.«150531_j46153718563335_1_alg».proof.Proof.KbObl
import Idealize.ShloMosaic.Lib.Pipeline.Kit
import Idealize.ShloMosaic.Lib.Tactic

noncomputable section

namespace Cert.Kernel.Hand

open Cert.Kernel Cert.Kernel.Gen Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement
set_option backward.isDefEq.respectTransparency.types false in
/-- From any memory with zero counters every weakly fair execution terminates; every input array ends as the region
    found it (of the result array nothing is stated), every other unscoped buffer as the region found it. -/
theorem run_main :
    θ_run defs (onTc (τ := τ) (main (F := F))) (s₀ m ρ)
      (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs to the end, faults nowhere, and leaves its fifteen argument arrays as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      ((h c).2 main_arg2 (Pipeline.mem_restRefs_of main_arg2 (by decide) (by decide))).trans (V_main_arg2 m c),
      (Eq.mp (congrFun (((dats m 0 c).toRForget forgets).ArrAt_in 3 rfl _) _) ((h c).1 3)).trans ((A_eq m c 3).trans (V_main_arg3 m c)),
      ((h c).2 main_arg4 (Pipeline.mem_restRefs_of main_arg4 (by decide) (by decide))).trans (V_main_arg4 m c),
      (Eq.mp (congrFun (((dats m 0 c).toRForget forgets).ArrAt_in 5 rfl _) _) ((h c).1 5)).trans ((A_eq m c 5).trans (V_main_arg5 m c)),
      ((h c).2 main_arg6 (Pipeline.mem_restRefs_of main_arg6 (by decide) (by decide))).trans (V_main_arg6 m c),
      (Eq.mp (congrFun (((dats m 0 c).toRForget forgets).ArrAt_in 7 rfl _) _) ((h c).1 7)).trans ((A_eq m c 7).trans (V_main_arg7 m c)),
      ((h c).2 main_arg8 (Pipeline.mem_restRefs_of main_arg8 (by decide) (by decide))).trans (V_main_arg8 m c),
      (Eq.mp (congrFun (((dats m 0 c).toRForget forgets).ArrAt_in 9 rfl _) _) ((h c).1 9)).trans ((A_eq m c 9).trans (V_main_arg9 m c)),
      ((h c).2 main_arg10 (Pipeline.mem_restRefs_of main_arg10 (by decide) (by decide))).trans (V_main_arg10 m c),
      (Eq.mp (congrFun (((dats m 0 c).toRForget forgets).ArrAt_in 11 rfl _) _) ((h c).1 11)).trans ((A_eq m c 11).trans (V_main_arg11 m c)),
      ((h c).2 main_arg12 (Pipeline.mem_restRefs_of main_arg12 (by decide) (by decide))).trans (V_main_arg12 m c),
      (Eq.mp (congrFun (((dats m 0 c).toRForget forgets).ArrAt_in 13 rfl _) _) ((h c).1 13)).trans ((A_eq m c 13).trans (V_main_arg13 m c)),
      ((h c).2 main_arg14 (Pipeline.mem_restRefs_of main_arg14 (by decide) (by decide))).trans (V_main_arg14 m c)⟩) (run_main m ρ)

end Cert.Kernel.Hand

end
-- ==== Proof.KiOut.lean ====
/-
  What one run of the kernel body stores: the payload of its one store as a function of the fifteen blocks it
  loads (the block of x, then weights and biases of the seven layers). Generic in the float instance.
-/
import proofs.«150531_j46153718563335_1_alg».proof.Proof.Gen.KernelIdeal.Skeleton

noncomputable section

namespace Cert.KernelIdeal.Hand

open Cert.KernelIdeal Cert.KernelIdeal.Gen Idealize.ShloMosaic

variable {F : FTy → Type} [FloatOps F]

/-- The stored block (8192 rows, one column) from the loaded blocks: the body's arithmetic, composed. -/
def out (X0 : S8192x17.Idx → Elt F .f32) (X1 : S15x17.Idx → Elt F .f32) (X2 : S1x15.Idx → Elt F .f32)
    (X3 : S15x15.Idx → Elt F .f32) (X4 : S1x15.Idx → Elt F .f32) (X5 : S15x15.Idx → Elt F .f32) (X6 : S1x15.Idx → Elt F .f32)
    (X7 : S15x15.Idx → Elt F .f32) (X8 : S1x15.Idx → Elt F .f32) (X9 : S15x15.Idx → Elt F .f32) (X10 : S1x15.Idx → Elt F .f32)
    (X11 : S15x15.Idx → Elt F .f32) (X12 : S1x15.Idx → Elt F .f32) (X13 : S1x15.Idx → Elt F .f32) (X14 : S1x1.Idx → Elt F .f32) :
    S8192x1.Idx → Elt F .f32 :=
  k0_pay3 (k0_pay1 X0 X1 X2 X3 X4 X5 X6) (k0_pay2 X7) X8 X9 X10 X11 X12 X13 X14

end Cert.KernelIdeal.Hand

end
-- ==== Proof.KiData.lean ====
/-
  The proof data of the one pipeline: at each grid point, what every window's staging buffer holds after the body.
  The block of x at the last point overhangs the array, so only its rows inside the array are named: the buffer is
  the block filled out with the zero word below them. The fourteen weight and bias windows hold their whole arrays at
  every point. The result's buffer holds the body's payload of those.
-/
import proofs.«150531_j46153718563335_1_alg».proof.Proof.KiOut
import proofs.«150531_j46153718563335_1_alg».proof.Proof.Gen.KernelIdeal.Frame

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero word in every entry of a block of x: what fills the rows below the array's end. -/
def zfill : S8192x17.Idx → Elt F .f32 := fun _ => Scalar.ofBits .f32 0#32

/-- The block of x at point t, filled out to the buffer's 8192 rows by d. -/
def xfill (c : Dev nD) (t : Fin cfg0.N) (d : S8192x17.Idx → Elt F .f32) : S8192x17.Idx → Elt F .f32 :=
  win0_0.fill (grid0.coords t) d (iblk m c 0 t)

/-- The payload at point t when the buffer of x holds its block filled out by d. -/
def outAt (c : Dev nD) (t : Fin cfg0.N) (d : S8192x17.Idx → Elt F .f32) : S8192x1.Idx → Elt F .f32 :=
  out (xfill m c t d) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)

/-- The proof data on device c: the arrays as the region finds them; after the body each input buffer at its
    block (x's filled out with zeros) and the result's at the payload; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => xfill m c t zfill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t zfill
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t zfill := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt m c t zfill := by dsimp only [dats]

/-- The buffer of x is fetched at every point: it holds its block, filled out by whatever the overwrite left. -/
theorem before0_0 (c : Dev nD) (t : Fin cfg0.N) (d) : (dats m 0 c).before 0 t d = xfill m c t d := by
  unfold Dat.before; rw [if_pos (fetch0_0 t)]; rfl

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

end Cert.KernelIdeal.Hand

end
-- ==== Proof.KiBody.lean ====
/-
  The kernel body's triple. The body loads its fifteen input buffers whole, computes, and stores one block whole
  into the result's buffer. So from ownership of sixteen whole buffers it runs, without a fault, to the
  continuation holding the fifteen inputs as they were and the result's buffer at the payload of what was loaded;
  what the result's buffer held before is read once and never used. Stated for any whole buffers, then at the
  staging buffers the pipeline hands the body at a point. Generic in the float instance.
-/
import proofs.«150531_j46153718563335_1_alg».proof.Proof.KiOut
import proofs.«150531_j46153718563335_1_alg».proof.Proof.Gen.KernelIdeal.Launch
import proofs.«150531_j46153718563335_1_alg».proof.Proof.Gen.KernelIdeal.Skeleton
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body on any sixteen whole buffers: the inputs at X0 … X14, the result's at anything. The one store covers
    the result's buffer, so what it holds afterwards is the stored block, and a whole load reads a buffer's contents. -/
theorem sound_kernel (c : Dev nD) (E : Set ℕ) (i : grid0.Coords) (arg1 : Memref sig .tc .vmem S8192x17 .f32) (harg1 : arg1.IsWhole) (arg2 : Memref sig .tc .vmem S15x17 .f32) (harg2 : arg2.IsWhole) (arg3 : Memref sig .tc .vmem S1x15 .f32) (harg3 : arg3.IsWhole) (arg4 : Memref sig .tc .vmem S15x15 .f32) (harg4 : arg4.IsWhole) (arg5 : Memref sig .tc .vmem S1x15 .f32) (harg5 : arg5.IsWhole) (arg6 : Memref sig .tc .vmem S15x15 .f32) (harg6 : arg6.IsWhole) (arg7 : Memref sig .tc .vmem S1x15 .f32) (harg7 : arg7.IsWhole) (arg8 : Memref sig .tc .vmem S15x15 .f32) (harg8 : arg8.IsWhole) (arg9 : Memref sig .tc .vmem S1x15 .f32) (harg9 : arg9.IsWhole) (arg10 : Memref sig .tc .vmem S15x15 .f32) (harg10 : arg10.IsWhole) (arg11 : Memref sig .tc .vmem S1x15 .f32) (harg11 : arg11.IsWhole) (arg12 : Memref sig .tc .vmem S15x15 .f32) (harg12 : arg12.IsWhole) (arg13 : Memref sig .tc .vmem S1x15 .f32) (harg13 : arg13.IsWhole) (arg14 : Memref sig .tc .vmem S1x15 .f32) (harg14 : arg14.IsWhole) (arg15 : Memref sig .tc .vmem S1x1 .f32) (harg15 : arg15.IsWhole) (arg16 : Memref sig .tc .vmem S8192x1 .f32) (harg16 : arg16.IsWhole)
    (X0 : S8192x17.Idx → Elt F .f32) (X1 : S15x17.Idx → Elt F .f32) (X2 : S1x15.Idx → Elt F .f32) (X3 : S15x15.Idx → Elt F .f32) (X4 : S1x15.Idx → Elt F .f32) (X5 : S15x15.Idx → Elt F .f32) (X6 : S1x15.Idx → Elt F .f32) (X7 : S15x15.Idx → Elt F .f32) (X8 : S1x15.Idx → Elt F .f32) (X9 : S15x15.Idx → Elt F .f32) (X10 : S1x15.Idx → Elt F .f32) (X11 : S15x15.Idx → Elt F .f32) (X12 : S1x15.Idx → Elt F .f32) (X13 : S1x15.Idx → Elt F .f32) (X14 : S1x1.Idx → Elt F .f32)
    (K : PUnit → sProp 𝕄) :
    iprop(owns (c : Thread nD τ) arg1 fullShare X0 ∗ owns (c : Thread nD τ) arg2 fullShare X1 ∗ owns (c : Thread nD τ) arg3 fullShare X2 ∗ owns (c : Thread nD τ) arg4 fullShare X3 ∗ owns (c : Thread nD τ) arg5 fullShare X4 ∗ owns (c : Thread nD τ) arg6 fullShare X5 ∗ owns (c : Thread nD τ) arg7 fullShare X6 ∗ owns (c : Thread nD τ) arg8 fullShare X7 ∗ owns (c : Thread nD τ) arg9 fullShare X8 ∗ owns (c : Thread nD τ) arg10 fullShare X9 ∗ owns (c : Thread nD τ) arg11 fullShare X10 ∗ owns (c : Thread nD τ) arg12 fullShare X11 ∗ owns (c : Thread nD τ) arg13 fullShare X12 ∗ owns (c : Thread nD τ) arg14 fullShare X13 ∗ owns (c : Thread nD τ) arg15 fullShare X14 ∗ (∃ d, owns (c : Thread nD τ) arg16 fullShare d)
        ∗ (iprop(owns (c : Thread nD τ) arg1 fullShare X0 ∗ owns (c : Thread nD τ) arg2 fullShare X1 ∗ owns (c : Thread nD τ) arg3 fullShare X2 ∗ owns (c : Thread nD τ) arg4 fullShare X3 ∗ owns (c : Thread nD τ) arg5 fullShare X4 ∗ owns (c : Thread nD τ) arg6 fullShare X5 ∗ owns (c : Thread nD τ) arg7 fullShare X6 ∗ owns (c : Thread nD τ) arg8 fullShare X7 ∗ owns (c : Thread nD τ) arg9 fullShare X8 ∗ owns (c : Thread nD τ) arg10 fullShare X9 ∗ owns (c : Thread nD τ) arg11 fullShare X10 ∗ owns (c : Thread nD τ) arg12 fullShare X11 ∗ owns (c : Thread nD τ) arg13 fullShare X12 ∗ owns (c : Thread nD τ) arg14 fullShare X13 ∗ owns (c : Thread nD τ) arg15 fullShare X14 ∗ owns (c : Thread nD τ) arg16 fullShare (out X0 X1 X2 X3 X4 X5 X6 X7 X8 X9 X10 X11 X12 X13 X14)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  have hz : (![0, 0] : Fin 2 → Nat) = fun _ => 0 := funext fun a => by fin_cases a <;> rfl
  rw [View.read_writes_eq_canon _ _ _ (fun y => View.cover_of_tiled [⟨_, _⟩] S8192x1.size (by rfl) y)]
  sl_unfold_words
  rw [View.canon_unit_zero hz]
  simp only [View.readAt_eq_ld, View.ld_unit_zero (S := S8192x17) hz, View.ld_unit_zero (S := S15x17) hz, View.ld_unit_zero (S := S1x15) hz, View.ld_unit_zero (S := S15x15) hz, View.ld_unit_zero (S := S1x1) hz]
  rfl

/-- The same at the staging buffers of a grid point: x's and the result's windows have two each, the others one. -/
theorem sound_body_slots (c : Dev nD) (E : Set ℕ) (i : grid0.Coords) (s0 : Fin 2) (s1 : Fin 1) (s2 : Fin 1) (s3 : Fin 1) (s4 : Fin 1) (s5 : Fin 1) (s6 : Fin 1) (s7 : Fin 1) (s8 : Fin 1) (s9 : Fin 1) (s10 : Fin 1) (s11 : Fin 1) (s12 : Fin 1) (s13 : Fin 1) (s14 : Fin 1) (s15 : Fin 2)
    (X0 : S8192x17.Idx → Elt F .f32) (X1 : S15x17.Idx → Elt F .f32) (X2 : S1x15.Idx → Elt F .f32) (X3 : S15x15.Idx → Elt F .f32) (X4 : S1x15.Idx → Elt F .f32) (X5 : S15x15.Idx → Elt F .f32) (X6 : S1x15.Idx → Elt F .f32) (X7 : S15x15.Idx → Elt F .f32) (X8 : S1x15.Idx → Elt F .f32) (X9 : S15x15.Idx → Elt F .f32) (X10 : S1x15.Idx → Elt F .f32) (X11 : S15x15.Idx → Elt F .f32) (X12 : S1x15.Idx → Elt F .f32) (X13 : S1x15.Idx → Elt F .f32) (X14 : S1x1.Idx → Elt F .f32) (X15 : S8192x1.Idx → Elt F .f32)
    (K : PUnit → sProp 𝕄) :
    iprop((owns (c : Thread nD τ) (stage0_0 s0) fullShare X0 ∗ owns (c : Thread nD τ) (stage0_1 s1) fullShare X1 ∗ owns (c : Thread nD τ) (stage0_2 s2) fullShare X2 ∗ owns (c : Thread nD τ) (stage0_3 s3) fullShare X3 ∗ owns (c : Thread nD τ) (stage0_4 s4) fullShare X4 ∗ owns (c : Thread nD τ) (stage0_5 s5) fullShare X5 ∗ owns (c : Thread nD τ) (stage0_6 s6) fullShare X6 ∗ owns (c : Thread nD τ) (stage0_7 s7) fullShare X7 ∗ owns (c : Thread nD τ) (stage0_8 s8) fullShare X8 ∗ owns (c : Thread nD τ) (stage0_9 s9) fullShare X9 ∗ owns (c : Thread nD τ) (stage0_10 s10) fullShare X10 ∗ owns (c : Thread nD τ) (stage0_11 s11) fullShare X11 ∗ owns (c : Thread nD τ) (stage0_12 s12) fullShare X12 ∗ owns (c : Thread nD τ) (stage0_13 s13) fullShare X13 ∗ owns (c : Thread nD τ) (stage0_14 s14) fullShare X14 ∗ owns (c : Thread nD τ) (stage0_15 s15) fullShare X15)
          ∗ (iprop(owns (c : Thread nD τ) (stage0_0 s0) fullShare X0 ∗ owns (c : Thread nD τ) (stage0_1 s1) fullShare X1 ∗ owns (c : Thread nD τ) (stage0_2 s2) fullShare X2 ∗ owns (c : Thread nD τ) (stage0_3 s3) fullShare X3 ∗ owns (c : Thread nD τ) (stage0_4 s4) fullShare X4 ∗ owns (c : Thread nD τ) (stage0_5 s5) fullShare X5 ∗ owns (c : Thread nD τ) (stage0_6 s6) fullShare X6 ∗ owns (c : Thread nD τ) (stage0_7 s7) fullShare X7 ∗ owns (c : Thread nD τ) (stage0_8 s8) fullShare X8 ∗ owns (c : Thread nD τ) (stage0_9 s9) fullShare X9 ∗ owns (c : Thread nD τ) (stage0_10 s10) fullShare X10 ∗ owns (c : Thread nD τ) (stage0_11 s11) fullShare X11 ∗ owns (c : Thread nD τ) (stage0_12 s12) fullShare X12 ∗ owns (c : Thread nD τ) (stage0_13 s13) fullShare X13 ∗ owns (c : Thread nD τ) (stage0_14 s14) fullShare X14 ∗ owns (c : Thread nD τ) (stage0_15 s15) fullShare (out X0 X1 X2 X3 X4 X5 X6 X7 X8 X9 X10 X11 X12 X13 X14)) -∗ K ⟨⟩))
      ⊢ wp frame (wpE (defs₀ (F := F)) Variants.none c none) E
          (cc0__mlp_kernel i (stage0_0 s0) (hstage0_0 s0) (stage0_1 s1) (hstage0_1 s1) (stage0_2 s2) (hstage0_2 s2) (stage0_3 s3) (hstage0_3 s3) (stage0_4 s4) (hstage0_4 s4) (stage0_5 s5) (hstage0_5 s5) (stage0_6 s6) (hstage0_6 s6) (stage0_7 s7) (hstage0_7 s7) (stage0_8 s8) (hstage0_8 s8) (stage0_9 s9) (hstage0_9 s9) (stage0_10 s10) (hstage0_10 s10) (stage0_11 s11) (hstage0_11 s11) (stage0_12 s12) (hstage0_12 s12) (stage0_13 s13) (hstage0_13 s13) (stage0_14 s14) (hstage0_14 s14) (stage0_15 s15) (hstage0_15 s15)) K := by
  iintro ⟨⟨H0, H1, H2, H3, H4, H5, H6, H7, H8, H9, H10, H11, H12, H13, H14, H15⟩, Hk⟩
  iapply (sound_kernel (F := F) c E i (stage0_0 s0) (hstage0_0 s0) (stage0_1 s1) (hstage0_1 s1) (stage0_2 s2) (hstage0_2 s2) (stage0_3 s3) (hstage0_3 s3) (stage0_4 s4) (hstage0_4 s4) (stage0_5 s5) (hstage0_5 s5) (stage0_6 s6) (hstage0_6 s6) (stage0_7 s7) (hstage0_7 s7) (stage0_8 s8) (hstage0_8 s8) (stage0_9 s9) (hstage0_9 s9) (stage0_10 s10) (hstage0_10 s10) (stage0_11 s11) (hstage0_11 s11) (stage0_12 s12) (hstage0_12 s12) (stage0_13 s13) (hstage0_13 s13) (stage0_14 s14) (hstage0_14 s14) (stage0_15 s15) (hstage0_15 s15)
    X0 X1 X2 X3 X4 X5 X6 X7 X8 X9 X10 X11 X12 X13 X14 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists X15; iexact H15
  iexact Hk

end Cert.KernelIdeal.Hand

end
-- ==== Proof.KiObl.lean ====
/-
  The body obligation of the pipeline: at every grid point the body, handed each window's current buffer at what it
  then holds, leaves each at what the proof data says. The last block of x and of the result overhangs the array, so
  those two buffers are stated on the rows inside the array only.
-/
import proofs.«150531_j46153718563335_1_alg».proof.Proof.KiData
import proofs.«150531_j46153718563335_1_alg».proof.Proof.KiBody
import Idealize.ShloMosaic.Lib.Pipeline.Kit
import Idealize.ShloMosaic.Lib.Tactic

noncomputable section

namespace Cert.KernelIdeal.Hand

open Cert.KernelIdeal Cert.KernelIdeal.Gen Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t: the invariant, nothing owed, and each window's current buffer at what it
    then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it returns: the two windows whose last block overhangs the array stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare (win0_15.fill (grid0.coords t) d (win0_15.cut (grid0.coords t) ((dats m 0 c).after 15 t)))))

/-- The body at any point. The buffer of x arrives holding its block filled out below the array's end by anything, the
    weights' and biases' buffers their arrays, the result's anything; the body leaves the inputs as they were and the
    result's buffer at the payload, whose rows inside the array do not depend on the filling. -/
theorem sound_body (hloc : ∀ (c : Dev nD) (t : Fin cfg0.N) (d : S8192x17.Idx → Elt F .f32),
      win0_15.cut (grid0.coords t) (outAt m c t d) = win0_15.cut (grid0.coords t) (outAt m c t zfill))
    (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15,
    show win0_0.cut (grid0.coords t) (xfill m c t zfill) = iblk m c 0 t from win0_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_body_slots (F := F) c Set.univ (grid0.coords t) (cfg0.slots t 0) (cfg0.slots t 1) (cfg0.slots t 2) (cfg0.slots t 3) (cfg0.slots t 4) (cfg0.slots t 5) (cfg0.slots t 6) (cfg0.slots t 7) (cfg0.slots t 8) (cfg0.slots t 9) (cfg0.slots t 10) (cfg0.slots t 11) (cfg0.slots t 12) (cfg0.slots t 13) (cfg0.slots t 14) (cfg0.slots t 15)
    (xfill m c t d0) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) _)
  isplitl [H0 H1 H2 H3 H4 H5 H6 H7 H8 H9 H10 H11 H12 H13 H14 H15]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H0, H1, H2, H3, H4, H5, H6, H7, H8, H9, H10, H11, H12, H13, H14, H15⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists (outAt m c t d0)
  rw [win0_15.fill_congr_cut (grid0.coords t) (hloc c t d0)]
  iexact H15

/-- The body obligation at every point. -/
theorem body_obligation (hloc : ∀ (c : Dev nD) (t : Fin cfg0.N) (d : S8192x17.Idx → Elt F .f32),
      win0_15.cut (grid0.coords t) (outAt m c t d) = win0_15.cut (grid0.coords t) (outAt m c t zfill))
    (c : Dev nD) :
    BodyObligationLoose (dats (F := F) m 0 c) (defs₀ (F := F)) Variants.none () Set.univ := fun t => by
  rw [bigSep_W0, bigSep_W0]
  exact sound_body m hloc c t

end Cert.KernelIdeal.Hand

end
-- ==== Proof.KiRun.lean ====
/-
  The run of the whole program from the body obligation: the host operations before the region, the region at every
  grid point, the write-backs. Read at the result array and at the argument arrays.
-/
import proofs.«150531_j46153718563335_1_alg».proof.Proof.KiObl
import Idealize.ShloMosaic.Lib.Pipeline.Kit
import Idealize.ShloMosaic.Lib.Tactic

noncomputable section

namespace Cert.KernelIdeal.Hand

open Cert.KernelIdeal Cert.KernelIdeal.Gen Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement
set_option backward.isDefEq.respectTransparency.types false in
/-- From any memory with zero counters every weakly fair execution terminates; every array the pipeline stages ends
    at what the write-backs computed from the proof data leave, every other unscoped buffer as the region found it. -/
theorem run_main (hloc : ∀ (c : Dev nD) (t : Fin cfg0.N) (d : S8192x17.Idx → Elt F .f32),
      win0_15.cut (grid0.coords t) (outAt m c t d) = win0_15.cut (grid0.coords t) (outAt m c t zfill)) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The same run read at the result and at the fifteen arguments: the result array ends at the write-backs'
    contents, every argument array as launched (a staged one is an input window's array, never written; the
    bias vectors are staged by no window). -/
theorem run_value (hloc : ∀ (c : Dev nD) (t : Fin cfg0.N) (d : S8192x17.Idx → Elt F .f32),
      win0_15.cut (grid0.coords t) (outAt m c t d) = win0_15.cut (grid0.coords t) (outAt m c t zfill)) :
    θ_run defs (onTc (τ := τ) (main (F := F))) ⟨m, fun _ => 0, ρ⟩ (fun r => ∀ c : Dev nD,
      r.2.mem ((c.tc : Thread nD τ).loc main_v7) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1 15,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c),
      ((h c).1 11).trans (((dats m 0 c).arrAt_in 11 rfl _).trans ((A_eq m c 11).trans (V_main_arg11 m c))),
      ((h c).2 main_arg12 (Pipeline.mem_restRefs_of main_arg12 (by decide) (by decide))).trans (V_main_arg12 m c),
      ((h c).1 13).trans (((dats m 0 c).arrAt_in 13 rfl _).trans ((A_eq m c 13).trans (V_main_arg13 m c))),
      ((h c).2 main_arg14 (Pipeline.mem_restRefs_of main_arg14 (by decide) (by decide))).trans (V_main_arg14 m c)⟩) (run_main m ρ hloc)

end Cert.KernelIdeal.Hand

end
-- ==== Proof.Spec.lean ====
/-
  The function both programs compute, row by row: a chain of seven dense layers on a row of 17 numbers,
  the first six followed by max(·, 0), the last one of width 1. Over the extended reals a dense layer sends
  a row x to the row whose entry j is (∑ q, x q * w j q) + b j: the weights are stored output-major, so
  no transposition appears. Nothing here mentions a program.
-/
import Idealize.ShloMosaic.PureOps.Ideal
import Idealize.ShloMosaic.Lib.ValueIdx

noncomputable section

open scoped BigOperators

namespace Cert.Mlp

open Idealize.ShloMosaic Idealize.ShloMosaic.ValueIdx

/-- The literal shape of an a-by-b matrix. -/
abbrev Sh2 (a b : Nat) : Shape := ⟨2, ![a, b]⟩
/-- The literal shape of a vector of length a. -/
abbrev Sh1 (a : Nat) : Shape := ⟨1, ![a]⟩

/-- One dense layer on one row: entry j is the inner product of the row with row j of the weights, plus the bias. -/
def dense {k n : Nat} (w : Fin n → Fin k → EReal) (b : Fin n → EReal) (x : Fin k → EReal) : Fin n → EReal :=
  fun j => (∑ q : Fin k, x q * w j q) + b j

/-- A dense layer followed by the positive part. -/
def hidden {k n : Nat} (w : Fin n → Fin k → EReal) (b : Fin n → EReal) (x : Fin k → EReal) : Fin n → EReal :=
  fun j => max (dense w b x j) 0

/-- The whole network on one row: six hidden layers and a last dense layer of width one. -/
def net (w0 : Fin 15 → Fin 17 → EReal) (b0 : Fin 15 → EReal) (w1 : Fin 15 → Fin 15 → EReal) (b1 : Fin 15 → EReal)
    (w2 : Fin 15 → Fin 15 → EReal) (b2 : Fin 15 → EReal) (w3 : Fin 15 → Fin 15 → EReal) (b3 : Fin 15 → EReal)
    (w4 : Fin 15 → Fin 15 → EReal) (b4 : Fin 15 → EReal) (w5 : Fin 15 → Fin 15 → EReal) (b5 : Fin 15 → EReal)
    (w6 : Fin 1 → Fin 15 → EReal) (b6 : Fin 1 → EReal) (x : Fin 17 → EReal) : EReal :=
  dense w6 b6 (hidden w5 b5 (hidden w4 b4 (hidden w3 b3 (hidden w2 b2 (hidden w1 b1 (hidden w0 b0 x)))))) 0

/-- A matrix stored as an array over a literal rank-2 shape, read by coordinates. -/
def mat {n k : Nat} (W : (Sh2 n k).Idx → EReal) : Fin n → Fin k → EReal := fun j q => W (ix2 j q)
/-- A vector stored as an array over a literal rank-1 shape, read by its coordinate. -/
def vec {n : Nat} (B : (Sh1 n).Idx → EReal) : Fin n → EReal := fun j => B (ix1 j)
/-- Row r of a matrix stored as an array. -/
def row {m k : Nat} (X : (Sh2 m k).Idx → EReal) (r : Fin m) : Fin k → EReal := fun q => X (ix2 r q)

/-- The result array: entry (i, 0) is the network on row i of x. The biases are vectors. -/
def G (x : (Sh2 4000000 17).Idx → EReal) (w0 : (Sh2 15 17).Idx → EReal) (b0 : (Sh1 15).Idx → EReal)
    (w1 : (Sh2 15 15).Idx → EReal) (b1 : (Sh1 15).Idx → EReal) (w2 : (Sh2 15 15).Idx → EReal) (b2 : (Sh1 15).Idx → EReal)
    (w3 : (Sh2 15 15).Idx → EReal) (b3 : (Sh1 15).Idx → EReal) (w4 : (Sh2 15 15).Idx → EReal) (b4 : (Sh1 15).Idx → EReal)
    (w5 : (Sh2 15 15).Idx → EReal) (b5 : (Sh1 15).Idx → EReal) (w6 : (Sh2 1 15).Idx → EReal) (b6 : (Sh1 1).Idx → EReal) :
    (Sh2 4000000 1).Idx → EReal :=
  fun j => net (mat w0) (vec b0) (mat w1) (vec b1) (mat w2) (vec b2) (mat w3) (vec b3) (mat w4) (vec b4) (mat w5) (vec b5)
    (mat w6) (vec b6) (row x (j 0))

end Cert.Mlp

end
-- ==== Proof.KiLaw.lean ====
/-
  The law that joins the kernel's payload to the specification, as a proposition: at the exact instance, entry
  (r, 0) of the stored block is the network on row r of the loaded block of x, with the loaded weights read by
  coordinates and each bias read off row 0 of its one-row block. In particular a row of the result depends on no
  other row of x.
-/
import proofs.«150531_j46153718563335_1_alg».proof.Proof.KiOut
import proofs.«150531_j46153718563335_1_alg».proof.Proof.Spec

noncomputable section

namespace Cert.KernelIdeal.Hand

open Cert.KernelIdeal Cert.Mlp Idealize.ShloMosaic Idealize.ShloMosaic.ValueIdx

/-- Row r of the stored block is the network on row r of the block of x. -/
def RowLaw : Prop :=
  ∀ (X0 : S8192x17.Idx → Elt Ideal .f32) (X1 : S15x17.Idx → Elt Ideal .f32) (X2 : S1x15.Idx → Elt Ideal .f32)
    (X3 : S15x15.Idx → Elt Ideal .f32) (X4 : S1x15.Idx → Elt Ideal .f32) (X5 : S15x15.Idx → Elt Ideal .f32) (X6 : S1x15.Idx → Elt Ideal .f32)
    (X7 : S15x15.Idx → Elt Ideal .f32) (X8 : S1x15.Idx → Elt Ideal .f32) (X9 : S15x15.Idx → Elt Ideal .f32) (X10 : S1x15.Idx → Elt Ideal .f32)
    (X11 : S15x15.Idx → Elt Ideal .f32) (X12 : S1x15.Idx → Elt Ideal .f32) (X13 : S1x15.Idx → Elt Ideal .f32) (X14 : S1x1.Idx → Elt Ideal .f32)
    (r : Fin 8192),
    out (F := Ideal) X0 X1 X2 X3 X4 X5 X6 X7 X8 X9 X10 X11 X12 X13 X14 (ix2 r (0 : Fin 1))
      = net (mat X1) (row X2 0) (mat X3) (row X4 0) (mat X5) (row X6 0) (mat X7) (row X8 0) (mat X9) (row X10 0)
          (mat X11) (row X12 0) (mat X13) (row X14 0) (row X0 r)

end Cert.KernelIdeal.Hand

end
-- ==== Proof.KiLocal.lean ====
/-
  The rows of the payload that lie inside the array do not depend on what fills the buffer of x below the array's
  end: by the row law a row of the payload is the network on the same row of the buffer of x, and the rows of that
  buffer inside the array are the rows of the block of x, whatever fills the rest.
-/
import proofs.«150531_j46153718563335_1_alg».proof.Proof.KiData
import proofs.«150531_j46153718563335_1_alg».proof.Proof.KiLaw

noncomputable section

namespace Cert.KernelIdeal.ValueLeg

open Cert.KernelIdeal Cert.KernelIdeal.Gen Cert.KernelIdeal.Hand Cert.Mlp
open Idealize.ShloMosaic Idealize.ShloMosaic.TcCoe Idealize.ShloMosaic.ValueIdx
open Idealize.ShloMosaic.Pipeline (Dat Cfg Window)

/-- The result's window and the window of x cut the rows alike: both block indices are the point's. -/
theorem xsize15_0_eq (i : grid0.Coords) : win0_15.xsize i 0 = win0_0.xsize i 0 := rfl

/-- The window of x never cuts the columns: the block spans the array's seventeen. -/
theorem xsize0_1_eq (i : grid0.Coords) : win0_0.xsize i 1 = 17 := rfl

/-- A row of the buffer of x inside the array is the block's row, whatever fills the buffer below. -/
theorem row_xfill_congr (m : (ℓ : Loc nD τ sig) → Buf (Elt Ideal) ℓ) (c : Dev nD) (t : Fin cfg0.N)
    (d d' : S8192x17.Idx → Elt Ideal .f32) (r : Fin 8192) (hr : r.val < win0_0.xsize (grid0.coords t) 0) :
    row (xfill m c t d) r = row (xfill m c t d') r := by
  funext q
  have hmv : win0_0.moved (grid0.coords t) (ix2 r q) = true := by
    rw [Window.moved_iff]
    intro a
    match a with
    | ⟨0, _⟩ => exact hr
    | ⟨1, _⟩ => exact (xsize0_1_eq (grid0.coords t)).symm ▸ q.isLt
  show win0_0.fill (grid0.coords t) d (iblk m c 0 t) (ix2 r q) = win0_0.fill (grid0.coords t) d' (iblk m c 0 t) (ix2 r q)
  unfold Window.fill
  rw [dif_pos hmv, dif_pos hmv]

end Cert.KernelIdeal.ValueLeg

namespace Cert.KernelIdeal.Hand

open Cert.KernelIdeal Cert.KernelIdeal.Gen Cert.Mlp
open Idealize.ShloMosaic Idealize.ShloMosaic.TcCoe Idealize.ShloMosaic.ValueIdx
open Idealize.ShloMosaic.Pipeline (Dat Cfg Window)

/-- The rows of the payload inside the array are the same whatever fills the buffer of x below the array's end. -/
theorem cut_outAt_congr (hlaw : RowLaw) (m : (ℓ : Loc nD τ sig) → Buf (Elt Ideal) ℓ) (c : Dev nD) (t : Fin cfg0.N)
    (d : S8192x17.Idx → Elt Ideal .f32) :
    win0_15.cut (grid0.coords t) (outAt m c t d) = win0_15.cut (grid0.coords t) (outAt m c t zfill) := by
  funext j
  have hj : (j 0).val < win0_0.xsize (grid0.coords t) 0 := (j 0).isLt
  have hr : (j 0).val < 8192 := Nat.lt_of_lt_of_le (j 0).isLt (win0_15.xsize_le (grid0.coords t) 0)
  have e : win0_15.xinj (grid0.coords t) j = ix2 (⟨(j 0).val, hr⟩ : Fin 8192) (0 : Fin 1) := by
    funext a
    match a with
    | ⟨0, _⟩ => rfl
    | ⟨1, _⟩ => exact Subsingleton.elim (α := Fin 1) _ _
  show outAt m c t d (win0_15.xinj (grid0.coords t) j) = outAt m c t zfill (win0_15.xinj (grid0.coords t) j)
  rw [e]
  unfold outAt
  rw [hlaw, hlaw, ValueLeg.row_xfill_congr m c t d zfill ⟨(j 0).val, hr⟩ hj]

end Cert.KernelIdeal.Hand

end
-- ==== Proof.KiValue.lean ====
/-
  From blocks to the array: what every point writes back is its block of one function of the argument arrays, the
  network applied row by row, and the blocks of the result tile its array; so the array ends holding that function.
-/
import proofs.«150531_j46153718563335_1_alg».proof.Proof.KiLocal
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ValueLeg

open Cert.KernelIdeal Cert.KernelIdeal.Gen Cert.KernelIdeal.Hand Cert.Mlp
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## Each input block as the argument arrays

A block's coordinate in its array is always block index × block size + 1 × the coordinate inside the block. The weight
and bias windows sit at block index (0, 0) with the array's own sizes, so their blocks are the arrays. -/

/-- The block of the first layer's weights is the whole matrix at every point. -/
theorem iblk1_eq (c : Dev nD) (t : Fin cfg0.N) :
    (iblk m c 1 t : S15x17.Idx → Elt Ideal .f32) = m ((c : Thread nD τ).loc main_arg1) := by
  funext j
  unfold iblk
  show V m c main_arg1 _ = _
  rw [V_main_arg1 m c]
  congr 1
  funext a; apply Fin.ext
  match a with
  | ⟨0, _⟩ => show 0 * 15 + 1 * (j 0).val = (j 0).val; omega
  | ⟨1, _⟩ => show 0 * 17 + 1 * (j 1).val = (j 1).val; omega

/-- The block of the second layer's weights is the whole matrix at every point. -/
theorem iblk3_eq (c : Dev nD) (t : Fin cfg0.N) :
    (iblk m c 3 t : S15x15.Idx → Elt Ideal .f32) = m ((c : Thread nD τ).loc main_arg3) := by
  funext j
  unfold iblk
  show V m c main_arg3 _ = _
  rw [V_main_arg3 m c]
  congr 1
  funext a; apply Fin.ext
  match a with
  | ⟨0, _⟩ => show 0 * 15 + 1 * (j 0).val = (j 0).val; omega
  | ⟨1, _⟩ => show 0 * 15 + 1 * (j 1).val = (j 1).val; omega

/-- The block of the third layer's weights is the whole matrix at every point. -/
theorem iblk5_eq (c : Dev nD) (t : Fin cfg0.N) :
    (iblk m c 5 t : S15x15.Idx → Elt Ideal .f32) = m ((c : Thread nD τ).loc main_arg5) := by
  funext j
  unfold iblk
  show V m c main_arg5 _ = _
  rw [V_main_arg5 m c]
  congr 1
  funext a; apply Fin.ext
  match a with
  | ⟨0, _⟩ => show 0 * 15 + 1 * (j 0).val = (j 0).val; omega
  | ⟨1, _⟩ => show 0 * 15 + 1 * (j 1).val = (j 1).val; omega

/-- The block of the fourth layer's weights is the whole matrix at every point. -/
theorem iblk7_eq (c : Dev nD) (t : Fin cfg0.N) :
    (iblk m c 7 t : S15x15.Idx → Elt Ideal .f32) = m ((c : Thread nD τ).loc main_arg7) := by
  funext j
  unfold iblk
  show V m c main_arg7 _ = _
  rw [V_main_arg7 m c]
  congr 1
  funext a; apply Fin.ext
  match a with
  | ⟨0, _⟩ => show 0 * 15 + 1 * (j 0).val = (j 0).val; omega
  | ⟨1, _⟩ => show 0 * 15 + 1 * (j 1).val = (j 1).val; omega

/-- The block of the fifth layer's weights is the whole matrix at every point. -/
theorem iblk9_eq (c : Dev nD) (t : Fin cfg0.N) :
    (iblk m c 9 t : S15x15.Idx → Elt Ideal .f32) = m ((c : Thread nD τ).loc main_arg9) := by
  funext j
  unfold iblk
  show V m c main_arg9 _ = _
  rw [V_main_arg9 m c]
  congr 1
  funext a; apply Fin.ext
  match a with
  | ⟨0, _⟩ => show 0 * 15 + 1 * (j 0).val = (j 0).val; omega
  | ⟨1, _⟩ => show 0 * 15 + 1 * (j 1).val = (j 1).val; omega

/-- The block of the sixth layer's weights is the whole matrix at every point. -/
theorem iblk11_eq (c : Dev nD) (t : Fin cfg0.N) :
    (iblk m c 11 t : S15x15.Idx → Elt Ideal .f32) = m ((c : Thread nD τ).loc main_arg11) := by
  funext j
  unfold iblk
  show V m c main_arg11 _ = _
  rw [V_main_arg11 m c]
  congr 1
  funext a; apply Fin.ext
  match a with
  | ⟨0, _⟩ => show 0 * 15 + 1 * (j 0).val = (j 0).val; omega
  | ⟨1, _⟩ => show 0 * 15 + 1 * (j 1).val = (j 1).val; omega

/-- The block of the last layer's weights is the whole matrix at every point. -/
theorem iblk13_eq (c : Dev nD) (t : Fin cfg0.N) :
    (iblk m c 13 t : S1x15.Idx → Elt Ideal .f32) = m ((c : Thread nD τ).loc main_arg13) := by
  funext j
  unfold iblk
  show V m c main_arg13 _ = _
  rw [V_main_arg13 m c]
  congr 1
  funext a; apply Fin.ext
  match a with
  | ⟨0, _⟩ => show 0 * 1 + 1 * (j 0).val = (j 0).val; omega
  | ⟨1, _⟩ => show 0 * 15 + 1 * (j 1).val = (j 1).val; omega

/-! The biases reach the kernel as one-row matrices that a reshape made of the bias vectors before the region: entry
(0, q) of the one-row matrix is entry q of the vector, both at row-major position q. -/

theorem V_main_v0_eq (c : Dev nD) : (V m c main_v0 : S1x15.Idx → Elt Ideal .f32)
    = shapeCast S1x15 (m ((c : Thread nD τ).loc main_arg2) : S15.Idx → Elt Ideal .f32) shapeCasts_S15_S1x15 := by
  dsimp only [Gen.V, Gen.hostOps0]; after_results; rfl

/-- Row 0 of the block of bias 0 is the bias vector. -/
theorem row_iblk2 (c : Dev nD) (t : Fin cfg0.N) :
    row (iblk m c 2 t : S1x15.Idx → Elt Ideal .f32) 0 = vec (m ((c : Thread nD τ).loc main_arg2) : S15.Idx → Elt Ideal .f32) := by
  funext q
  unfold row vec iblk
  show V m c main_v0 _ = _
  rw [V_main_v0_eq m c]
  refine shapeCast_apply _ _ _ _ ?_
  refine (Shape.rowMajor_val_one (d := ![15]) (ix1 q)).trans (Eq.trans ?_ (Shape.rowMajor_val_two (d := ![1, 15]) _).symm)
  show q.val = (0 * 1 + 1 * 0) * 15 + (0 * 15 + 1 * q.val)
  omega

theorem V_main_v1_eq (c : Dev nD) : (V m c main_v1 : S1x15.Idx → Elt Ideal .f32)
    = shapeCast S1x15 (m ((c : Thread nD τ).loc main_arg4) : S15.Idx → Elt Ideal .f32) shapeCasts_S15_S1x15 := by
  dsimp only [Gen.V, Gen.hostOps0]; after_results; rfl

/-- Row 0 of the block of bias 1 is the bias vector. -/
theorem row_iblk4 (c : Dev nD) (t : Fin cfg0.N) :
    row (iblk m c 4 t : S1x15.Idx → Elt Ideal .f32) 0 = vec (m ((c : Thread nD τ).loc main_arg4) : S15.Idx → Elt Ideal .f32) := by
  funext q
  unfold row vec iblk
  show V m c main_v1 _ = _
  rw [V_main_v1_eq m c]
  refine shapeCast_apply _ _ _ _ ?_
  refine (Shape.rowMajor_val_one (d := ![15]) (ix1 q)).trans (Eq.trans ?_ (Shape.rowMajor_val_two (d := ![1, 15]) _).symm)
  show q.val = (0 * 1 + 1 * 0) * 15 + (0 * 15 + 1 * q.val)
  omega

theorem V_main_v2_eq (c : Dev nD) : (V m c main_v2 : S1x15.Idx → Elt Ideal .f32)
    = shapeCast S1x15 (m ((c : Thread nD τ).loc main_arg6) : S15.Idx → Elt Ideal .f32) shapeCasts_S15_S1x15 := by
  dsimp only [Gen.V, Gen.hostOps0]; after_results; rfl

/-- Row 0 of the block of bias 2 is the bias vector. -/
theorem row_iblk6 (c : Dev nD) (t : Fin cfg0.N) :
    row (iblk m c 6 t : S1x15.Idx → Elt Ideal .f32) 0 = vec (m ((c : Thread nD τ).loc main_arg6) : S15.Idx → Elt Ideal .f32) := by
  funext q
  unfold row vec iblk
  show V m c main_v2 _ = _
  rw [V_main_v2_eq m c]
  refine shapeCast_apply _ _ _ _ ?_
  refine (Shape.rowMajor_val_one (d := ![15]) (ix1 q)).trans (Eq.trans ?_ (Shape.rowMajor_val_two (d := ![1, 15]) _).symm)
  show q.val = (0 * 1 + 1 * 0) * 15 + (0 * 15 + 1 * q.val)
  omega

theorem V_main_v3_eq (c : Dev nD) : (V m c main_v3 : S1x15.Idx → Elt Ideal .f32)
    = shapeCast S1x15 (m ((c : Thread nD τ).loc main_arg8) : S15.Idx → Elt Ideal .f32) shapeCasts_S15_S1x15 := by
  dsimp only [Gen.V, Gen.hostOps0]; after_results; rfl

/-- Row 0 of the block of bias 3 is the bias vector. -/
theorem row_iblk8 (c : Dev nD) (t : Fin cfg0.N) :
    row (iblk m c 8 t : S1x15.Idx → Elt Ideal .f32) 0 = vec (m ((c : Thread nD τ).loc main_arg8) : S15.Idx → Elt Ideal .f32) := by
  funext q
  unfold row vec iblk
  show V m c main_v3 _ = _
  rw [V_main_v3_eq m c]
  refine shapeCast_apply _ _ _ _ ?_
  refine (Shape.rowMajor_val_one (d := ![15]) (ix1 q)).trans (Eq.trans ?_ (Shape.rowMajor_val_two (d := ![1, 15]) _).symm)
  show q.val = (0 * 1 + 1 * 0) * 15 + (0 * 15 + 1 * q.val)
  omega

theorem V_main_v4_eq (c : Dev nD) : (V m c main_v4 : S1x15.Idx → Elt Ideal .f32)
    = shapeCast S1x15 (m ((c : Thread nD τ).loc main_arg10) : S15.Idx → Elt Ideal .f32) shapeCasts_S15_S1x15 := by
  dsimp only [Gen.V, Gen.hostOps0]; after_results; rfl

/-- Row 0 of the block of bias 4 is the bias vector. -/
theorem row_iblk10 (c : Dev nD) (t : Fin cfg0.N) :
    row (iblk m c 10 t : S1x15.Idx → Elt Ideal .f32) 0 = vec (m ((c : Thread nD τ).loc main_arg10) : S15.Idx → Elt Ideal .f32) := by
  funext q
  unfold row vec iblk
  show V m c main_v4 _ = _
  rw [V_main_v4_eq m c]
  refine shapeCast_apply _ _ _ _ ?_
  refine (Shape.rowMajor_val_one (d := ![15]) (ix1 q)).trans (Eq.trans ?_ (Shape.rowMajor_val_two (d := ![1, 15]) _).symm)
  show q.val = (0 * 1 + 1 * 0) * 15 + (0 * 15 + 1 * q.val)
  omega

theorem V_main_v5_eq (c : Dev nD) : (V m c main_v5 : S1x15.Idx → Elt Ideal .f32)
    = shapeCast S1x15 (m ((c : Thread nD τ).loc main_arg12) : S15.Idx → Elt Ideal .f32) shapeCasts_S15_S1x15 := by
  dsimp only [Gen.V, Gen.hostOps0]; after_results; rfl

/-- Row 0 of the block of bias 5 is the bias vector. -/
theorem row_iblk12 (c : Dev nD) (t : Fin cfg0.N) :
    row (iblk m c 12 t : S1x15.Idx → Elt Ideal .f32) 0 = vec (m ((c : Thread nD τ).loc main_arg12) : S15.Idx → Elt Ideal .f32) := by
  funext q
  unfold row vec iblk
  show V m c main_v5 _ = _
  rw [V_main_v5_eq m c]
  refine shapeCast_apply _ _ _ _ ?_
  refine (Shape.rowMajor_val_one (d := ![15]) (ix1 q)).trans (Eq.trans ?_ (Shape.rowMajor_val_two (d := ![1, 15]) _).symm)
  show q.val = (0 * 1 + 1 * 0) * 15 + (0 * 15 + 1 * q.val)
  omega

theorem V_main_v6_eq (c : Dev nD) : (V m c main_v6 : S1x1.Idx → Elt Ideal .f32)
    = shapeCast S1x1 (m ((c : Thread nD τ).loc main_arg14) : S1.Idx → Elt Ideal .f32) shapeCasts_S1_S1x1 := by
  dsimp only [Gen.V, Gen.hostOps0]; after_results; rfl

/-- Row 0 of the block of the last bias is the one-entry bias vector. -/
theorem row_iblk14 (c : Dev nD) (t : Fin cfg0.N) :
    row (iblk m c 14 t : S1x1.Idx → Elt Ideal .f32) 0 = vec (m ((c : Thread nD τ).loc main_arg14) : S1.Idx → Elt Ideal .f32) := by
  funext q
  unfold row vec iblk
  show V m c main_v6 _ = _
  rw [V_main_v6_eq m c]
  refine shapeCast_apply _ _ _ _ ?_
  refine (Shape.rowMajor_val_one (d := ![1]) (ix1 q)).trans (Eq.trans ?_ (Shape.rowMajor_val_two (d := ![1, 1]) _).symm)
  show q.val = (0 * 1 + 1 * 0) * 1 + (0 * 1 + 1 * q.val)
  omega

/-- A row of the buffer of x inside the array is a row of x: row r of the block at the point is row
    (block index × 8192 + r) of the array, and the result's window has the same block index there. -/
theorem row_xfill_eq (c : Dev nD) (t : Fin cfg0.N) (d : S8192x17.Idx → Elt Ideal .f32) (r : Fin 8192)
    (hr : r.val < win0_0.xsize (grid0.coords t) 0) (k : Fin 4000000)
    (hk : k.val = win0_15.index t (0 : Fin 2) * 8192 + 1 * r.val) :
    row (xfill m c t d) r = row (m ((c : Thread nD τ).loc main_arg0) : S4000000x17.Idx → Elt Ideal .f32) k := by
  funext q
  have hmv : win0_0.moved (grid0.coords t) (ix2 r q) = true := by
    rw [Window.moved_iff]
    intro a
    match a with
    | ⟨0, _⟩ => exact hr
    | ⟨1, _⟩ => exact (xsize0_1_eq (grid0.coords t)).symm ▸ q.isLt
  show win0_0.fill (grid0.coords t) d (iblk m c 0 t) (ix2 r q) = _
  unfold Window.fill
  rw [dif_pos hmv]
  unfold iblk row
  show V m c main_arg0 _ = _
  rw [V_main_arg0 m c]
  congr 1
  funext a; apply Fin.ext
  match a with
  | ⟨0, _⟩ => show win0_0.index t (0 : Fin 2) * 8192 + 1 * r.val = k.val; rw [hk]; rfl
  | ⟨1, _⟩ => show 0 * 17 + 1 * q.val = q.val; omega

end Cert.KernelIdeal.ValueLeg

namespace Cert.KernelIdeal.Hand

open Cert.KernelIdeal Cert.KernelIdeal.Gen Cert.KernelIdeal.ValueLeg Cert.Mlp
open Idealize.ShloMosaic Idealize.ShloMosaic.TcCoe Idealize.ShloMosaic.ValueIdx Idealize.SL.Sem
open Idealize.ShloMosaic.Pipeline (Dat Cfg Window)

/-- The specification at the kernel's argument arrays as launched. -/
def GK (m : (ℓ : Loc nD τ sig) → Buf (Elt Ideal) ℓ) (c : Dev nD) : Buf (Elt Ideal) ((c : Thread nD τ).loc main_v7) :=
  Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What point t writes back is its block of the specification: row j of the payload inside the array is, by the row
    law, the network on row j of the buffer of x, which is the row of x that the result's block names; the weights
    and biases the body loaded are the argument arrays. -/
theorem flushed15_eq (hlaw : RowLaw) (m : (ℓ : Loc nD τ sig) → Buf (Elt Ideal) ℓ) (c : Dev nD) (t : Fin cfg0.N) :
    (dats (F := Ideal) m 0 c).flushed 15 t = ((cfg0.win 15).blk t).view.read (Elt Ideal) (GK m c) := by
  show (cfg0.win 15).cut (grid0.coords t) ((dats m 0 c).after 15 t) = _
  rw [after0_15]
  funext j
  have hj : (j 0).val < win0_0.xsize (grid0.coords t) 0 := (j 0).isLt
  have hr : (j 0).val < 8192 := Nat.lt_of_lt_of_le (j 0).isLt (win0_15.xsize_le (grid0.coords t) 0)
  have e : win0_15.xinj (grid0.coords t) j = ix2 (⟨(j 0).val, hr⟩ : Fin 8192) (0 : Fin 1) := by
    funext a
    match a with
    | ⟨0, _⟩ => rfl
    | ⟨1, _⟩ => exact Subsingleton.elim (α := Fin 1) _ _
  show outAt m c t zfill (win0_15.xinj (grid0.coords t) j) = GK m c (((cfg0.win 15).blk t).view.emb j)
  rw [e]
  unfold outAt GK Cert.Mlp.G
  rw [hlaw, iblk1_eq m c t, row_iblk2 m c t, iblk3_eq m c t, row_iblk4 m c t, iblk5_eq m c t, row_iblk6 m c t,
    iblk7_eq m c t, row_iblk8 m c t, iblk9_eq m c t, row_iblk10 m c t, iblk11_eq m c t, row_iblk12 m c t,
    iblk13_eq m c t, row_iblk14 m c t,
    row_xfill_eq m c t zfill ⟨(j 0).val, hr⟩ hj ((((cfg0.win 15).blk t).view.emb j) 0) rfl]

end Cert.KernelIdeal.Hand

end
-- ==== Proof.KiCover.lean ====
/-
  The write-back blocks of the result window cover the result array. The grid has 489 points; at point t the
  window's block is the rows from t * 8192 up to 8192 rows further or the array's end, whichever comes first, and
  the one column. Row r of the array (r < 4000000 = 488 * 8192 + 2304) is in the block of point r / 8192.
-/
import proofs.«150531_j46153718563335_1_alg».proof.Proof.Gen.KernelIdeal.Points
import proofs.«150531_j46153718563335_1_alg».proof.Proof.Gen.KernelIdeal.Launch
import Idealize.ShloMosaic.Lib.Pipeline.Value

namespace Cert.KernelIdeal.Hand

open Cert.KernelIdeal Cert.KernelIdeal.Gen Idealize.ShloMosaic

/-! ## The result window's index map and cut, point by point (decided once over the 489 points) -/

/-- On the row axis the block index at point t is t. -/
theorem index15_0 : ∀ t : Fin cfg0.N, win0_15.index t 0 = t.val :=
  (by decide +kernel : ∀ t : Fin grid0.N, win0_15.index t 0 = t.val)

/-- On the column axis the block index is 0. -/
theorem index15_1 : ∀ t : Fin cfg0.N, win0_15.index t 1 = 0 :=
  (by decide +kernel : ∀ t : Fin grid0.N, win0_15.index t 1 = 0)

/-- The rows the write-back at point t moves: 8192, or what is left of the array's 4000000 rows after t * 8192. -/
theorem xsize15_0 : ∀ t : Fin cfg0.N, win0_15.xsize (grid0.coords t) 0 = min 8192 (4000000 - t.val * 8192) :=
  (by decide +kernel : ∀ t : Fin grid0.N, win0_15.xsize (grid0.coords t) 0 = min 8192 (4000000 - t.val * 8192))

/-- The one column is moved whole. -/
theorem xsize15_1 : ∀ t : Fin cfg0.N, win0_15.xsize (grid0.coords t) 1 = 1 :=
  (by decide +kernel : ∀ t : Fin grid0.N, win0_15.xsize (grid0.coords t) 1 = 1)

/-! ## Membership in a block, and the cover -/

/-- An index of the result array is in the block written back at point t iff its row is one of the block's rows
    inside the array (its column is the one column). -/
theorem mem_blk15 (t : Fin cfg0.N) (i : S4000000x1.Idx) :
    i ∈ ((cfg0.win 15).blk t).view.set
      ↔ t.val * 8192 ≤ (i 0).val ∧ (i 0).val < t.val * 8192 + min 8192 (4000000 - t.val * 8192) := by
  show i ∈ ((View.whole main_v7).slice (win0_15.rect t)).set ↔ _
  rw [View.set_slice_whole, Rect.mem_set_unit]
  have h1 : (i 1 : Nat) < 1 := (i 1).isLt
  constructor
  · intro h
    have h0 := h 0
    change win0_15.index t 0 * 8192 ≤ (i 0 : Nat) ∧ (i 0 : Nat) < win0_15.index t 0 * 8192 + win0_15.xsize (grid0.coords t) 0 at h0
    rw [index15_0, xsize15_0] at h0
    exact h0
  · intro h a
    match a with
    | ⟨0, _⟩ =>
      change win0_15.index t 0 * 8192 ≤ (i 0 : Nat) ∧ (i 0 : Nat) < win0_15.index t 0 * 8192 + win0_15.xsize (grid0.coords t) 0
      rw [index15_0, xsize15_0]
      exact h
    | ⟨1, _⟩ =>
      change win0_15.index t 1 * 1 ≤ (i 1 : Nat) ∧ (i 1 : Nat) < win0_15.index t 1 * 1 + win0_15.xsize (grid0.coords t) 1
      rw [index15_1, xsize15_1]
      omega

/-- Every index of the result array lies in a block the result window writes back: row r in that of point r / 8192. -/
theorem cover15 : ∀ i : S4000000x1.Idx, ∃ t : Fin cfg0.N, (cfg0.win 15).flush t = true ∧ i ∈ ((cfg0.win 15).blk t).view.set := by
  intro i
  have hr : (i 0 : Nat) < 4000000 := (i 0).isLt
  have hN : cfg0.N = 489 := N_0
  refine ⟨⟨(i 0 : Nat) / 8192, (by omega : (i 0 : Nat) / 8192 < 489).trans_eq hN.symm⟩, flush0_15 _, ?_⟩
  rw [mem_blk15]
  show (i 0 : Nat) / 8192 * 8192 ≤ (i 0 : Nat)
    ∧ (i 0 : Nat) < (i 0 : Nat) / 8192 * 8192 + min 8192 (4000000 - (i 0 : Nat) / 8192 * 8192)
  omega

end Cert.KernelIdeal.Hand
-- ==== Proof.PayNet.lean ====
/-
  The kernel body's stored block, read one row at a time. Each of its seven layers is a product with the
  transposed weights into a zero accumulator, plus the bias row repeated over every row, then (all but the last)
  the maximum with zero. At the ideal values the narrowing casts are the identity, so entry (r, j) of a layer's
  result is (∑ q, x r q * w j q) + b j, cut below at zero: the specification's layer on row r of its input.
  Chaining the seven gives the specification's network on row r of the loaded block of x, and on no other row.
-/
import proofs.«150531_j46153718563335_1_alg».proof.Proof.KiOut
import proofs.«150531_j46153718563335_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayNet

open Cert.KernelIdeal Cert.KernelIdeal.Gen Cert.KernelIdeal.Hand Cert.Mlp Idealize.ShloMosaic Idealize.ShloMosaic.ValueIdx

/-! ## The three products at an entry

For each of the three contraction records (17 → 15, 15 → 15, 15 → 1): the left operand is read at the result's
row and the contracted coordinate, the right operand at the contracted coordinate and the result's column. -/

theorem mm17_l0 (i : S8192x15.Idx) (q : dot_S8192x17_S17x15_S8192x15_1_0_0_1_n_n.contr.Idx) :
    (dot_S8192x17_S17x15_S8192x15_1_0_0_1_n_n.lhsIdx i q 0).val = (i 0).val := by
  unfold DotDims.lhsIdx
  rw [dif_neg (show ¬(0 : Fin S8192x17.rank) ∈ dot_S8192x17_S17x15_S8192x15_1_0_0_1_n_n.lhsBatch by decide), dif_pos (show (0 : Fin S8192x17.rank) ∈ dot_S8192x17_S17x15_S8192x15_1_0_0_1_n_n.lhsNonContracting by decide)]
  rfl
theorem mm17_r1 (i : S8192x15.Idx) (q : dot_S8192x17_S17x15_S8192x15_1_0_0_1_n_n.contr.Idx) :
    (dot_S8192x17_S17x15_S8192x15_1_0_0_1_n_n.rhsIdx i q 1).val = (i 1).val := by
  unfold DotDims.rhsIdx
  rw [dif_neg (show ¬(1 : Fin S17x15.rank) ∈ dot_S8192x17_S17x15_S8192x15_1_0_0_1_n_n.rhsBatch by decide), dif_pos (show (1 : Fin S17x15.rank) ∈ dot_S8192x17_S17x15_S8192x15_1_0_0_1_n_n.rhsNonContracting by decide)]
  rfl

/-- The 17 → 15 product into a zero accumulator at (r, j): the sum over the contracted coordinate. -/
theorem mm17 (lhs : FVec Ideal S8192x17 .bf16) (rhs : FVec Ideal S17x15 .bf16) (r : Fin 8192) (j : Fin 15) :
    matmul (F := Ideal) dot_S8192x17_S17x15_S8192x15_1_0_0_1_n_n none lhs rhs (constant (F := Ideal) S8192x15 .f32 0x00000000#32) (ix2 r j)
      = ∑ q : Fin 17, lhs (ix2 r q) * rhs (ix2 q j) := by
  simp only [matmul]
  rw [Ideal.matmul_constant_zero_apply, ← Equiv.sum_comp (ValueIdx.contrEquiv1 dot_S8192x17_S17x15_S8192x15_1_0_0_1_n_n 17 rfl rfl).symm]
  refine Finset.sum_congr rfl fun k _ => ?_
  have hk := ValueIdx.contrEquiv1_symm_val dot_S8192x17_S17x15_S8192x15_1_0_0_1_n_n 17 rfl rfl k
  have el : dot_S8192x17_S17x15_S8192x15_1_0_0_1_n_n.lhsIdx (ix2 r j) ((ValueIdx.contrEquiv1 dot_S8192x17_S17x15_S8192x15_1_0_0_1_n_n 17 rfl rfl).symm k) = ix2 r k := funext fun a => Fin.ext (by
    match a with
    | ⟨0, _⟩ => exact mm17_l0 _ _
    | ⟨1, _⟩ => exact (dot_S8192x17_S17x15_S8192x15_1_0_0_1_n_n.lhsIdx_val_of_single rfl _ _).trans hk)
  have er : dot_S8192x17_S17x15_S8192x15_1_0_0_1_n_n.rhsIdx (ix2 r j) ((ValueIdx.contrEquiv1 dot_S8192x17_S17x15_S8192x15_1_0_0_1_n_n 17 rfl rfl).symm k) = ix2 k j := funext fun a => Fin.ext (by
    match a with
    | ⟨0, _⟩ => exact (dot_S8192x17_S17x15_S8192x15_1_0_0_1_n_n.rhsIdx_val_of_single rfl _ _).trans hk
    | ⟨1, _⟩ => exact mm17_r1 _ _)
  rw [el, er]

theorem mm15_l0 (i : S8192x15.Idx) (q : dot_S8192x15_S15x15_S8192x15_1_0_0_1_n_n.contr.Idx) :
    (dot_S8192x15_S15x15_S8192x15_1_0_0_1_n_n.lhsIdx i q 0).val = (i 0).val := by
  unfold DotDims.lhsIdx
  rw [dif_neg (show ¬(0 : Fin S8192x15.rank) ∈ dot_S8192x15_S15x15_S8192x15_1_0_0_1_n_n.lhsBatch by decide), dif_pos (show (0 : Fin S8192x15.rank) ∈ dot_S8192x15_S15x15_S8192x15_1_0_0_1_n_n.lhsNonContracting by decide)]
  rfl
theorem mm15_r1 (i : S8192x15.Idx) (q : dot_S8192x15_S15x15_S8192x15_1_0_0_1_n_n.contr.Idx) :
    (dot_S8192x15_S15x15_S8192x15_1_0_0_1_n_n.rhsIdx i q 1).val = (i 1).val := by
  unfold DotDims.rhsIdx
  rw [dif_neg (show ¬(1 : Fin S15x15.rank) ∈ dot_S8192x15_S15x15_S8192x15_1_0_0_1_n_n.rhsBatch by decide), dif_pos (show (1 : Fin S15x15.rank) ∈ dot_S8192x15_S15x15_S8192x15_1_0_0_1_n_n.rhsNonContracting by decide)]
  rfl

/-- The 15 → 15 product into a zero accumulator at (r, j): the sum over the contracted coordinate. -/
theorem mm15 (lhs : FVec Ideal S8192x15 .bf16) (rhs : FVec Ideal S15x15 .bf16) (r : Fin 8192) (j : Fin 15) :
    matmul (F := Ideal) dot_S8192x15_S15x15_S8192x15_1_0_0_1_n_n none lhs rhs (constant (F := Ideal) S8192x15 .f32 0x00000000#32) (ix2 r j)
      = ∑ q : Fin 15, lhs (ix2 r q) * rhs (ix2 q j) := by
  simp only [matmul]
  rw [Ideal.matmul_constant_zero_apply, ← Equiv.sum_comp (ValueIdx.contrEquiv1 dot_S8192x15_S15x15_S8192x15_1_0_0_1_n_n 15 rfl rfl).symm]
  refine Finset.sum_congr rfl fun k _ => ?_
  have hk := ValueIdx.contrEquiv1_symm_val dot_S8192x15_S15x15_S8192x15_1_0_0_1_n_n 15 rfl rfl k
  have el : dot_S8192x15_S15x15_S8192x15_1_0_0_1_n_n.lhsIdx (ix2 r j) ((ValueIdx.contrEquiv1 dot_S8192x15_S15x15_S8192x15_1_0_0_1_n_n 15 rfl rfl).symm k) = ix2 r k := funext fun a => Fin.ext (by
    match a with
    | ⟨0, _⟩ => exact mm15_l0 _ _
    | ⟨1, _⟩ => exact (dot_S8192x15_S15x15_S8192x15_1_0_0_1_n_n.lhsIdx_val_of_single rfl _ _).trans hk)
  have er : dot_S8192x15_S15x15_S8192x15_1_0_0_1_n_n.rhsIdx (ix2 r j) ((ValueIdx.contrEquiv1 dot_S8192x15_S15x15_S8192x15_1_0_0_1_n_n 15 rfl rfl).symm k) = ix2 k j := funext fun a => Fin.ext (by
    match a with
    | ⟨0, _⟩ => exact (dot_S8192x15_S15x15_S8192x15_1_0_0_1_n_n.rhsIdx_val_of_single rfl _ _).trans hk
    | ⟨1, _⟩ => exact mm15_r1 _ _)
  rw [el, er]

theorem mm1_l0 (i : S8192x1.Idx) (q : dot_S8192x15_S15x1_S8192x1_1_0_0_1_n_n.contr.Idx) :
    (dot_S8192x15_S15x1_S8192x1_1_0_0_1_n_n.lhsIdx i q 0).val = (i 0).val := by
  unfold DotDims.lhsIdx
  rw [dif_neg (show ¬(0 : Fin S8192x15.rank) ∈ dot_S8192x15_S15x1_S8192x1_1_0_0_1_n_n.lhsBatch by decide), dif_pos (show (0 : Fin S8192x15.rank) ∈ dot_S8192x15_S15x1_S8192x1_1_0_0_1_n_n.lhsNonContracting by decide)]
  rfl
theorem mm1_r1 (i : S8192x1.Idx) (q : dot_S8192x15_S15x1_S8192x1_1_0_0_1_n_n.contr.Idx) :
    (dot_S8192x15_S15x1_S8192x1_1_0_0_1_n_n.rhsIdx i q 1).val = (i 1).val := by
  unfold DotDims.rhsIdx
  rw [dif_neg (show ¬(1 : Fin S15x1.rank) ∈ dot_S8192x15_S15x1_S8192x1_1_0_0_1_n_n.rhsBatch by decide), dif_pos (show (1 : Fin S15x1.rank) ∈ dot_S8192x15_S15x1_S8192x1_1_0_0_1_n_n.rhsNonContracting by decide)]
  rfl

/-- The 15 → 1 product into a zero accumulator at (r, j): the sum over the contracted coordinate. -/
theorem mm1 (lhs : FVec Ideal S8192x15 .bf16) (rhs : FVec Ideal S15x1 .bf16) (r : Fin 8192) (j : Fin 1) :
    matmul (F := Ideal) dot_S8192x15_S15x1_S8192x1_1_0_0_1_n_n none lhs rhs (constant (F := Ideal) S8192x1 .f32 0x00000000#32) (ix2 r j)
      = ∑ q : Fin 15, lhs (ix2 r q) * rhs (ix2 q j) := by
  simp only [matmul]
  rw [Ideal.matmul_constant_zero_apply, ← Equiv.sum_comp (ValueIdx.contrEquiv1 dot_S8192x15_S15x1_S8192x1_1_0_0_1_n_n 15 rfl rfl).symm]
  refine Finset.sum_congr rfl fun k _ => ?_
  have hk := ValueIdx.contrEquiv1_symm_val dot_S8192x15_S15x1_S8192x1_1_0_0_1_n_n 15 rfl rfl k
  have el : dot_S8192x15_S15x1_S8192x1_1_0_0_1_n_n.lhsIdx (ix2 r j) ((ValueIdx.contrEquiv1 dot_S8192x15_S15x1_S8192x1_1_0_0_1_n_n 15 rfl rfl).symm k) = ix2 r k := funext fun a => Fin.ext (by
    match a with
    | ⟨0, _⟩ => exact mm1_l0 _ _
    | ⟨1, _⟩ => exact (dot_S8192x15_S15x1_S8192x1_1_0_0_1_n_n.lhsIdx_val_of_single rfl _ _).trans hk)
  have er : dot_S8192x15_S15x1_S8192x1_1_0_0_1_n_n.rhsIdx (ix2 r j) ((ValueIdx.contrEquiv1 dot_S8192x15_S15x1_S8192x1_1_0_0_1_n_n 15 rfl rfl).symm k) = ix2 k j := funext fun a => Fin.ext (by
    match a with
    | ⟨0, _⟩ => exact (dot_S8192x15_S15x1_S8192x1_1_0_0_1_n_n.rhsIdx_val_of_single rfl _ _).trans hk
    | ⟨1, _⟩ => exact mm1_r1 _ _)
  rw [el, er]

/-! ## One layer at an entry

The transposed weights at (q, j) are the weights at (j, q); the repeated bias row at (r, j) is the bias at (0, j);
the literal zero is 0; the narrowing casts change nothing. -/

/-- The first hidden layer (17 → 15) at (r, j): the specification's hidden layer on row r of the block it multiplies. -/
theorem layer17 (lhs : FVec Ideal S8192x17 .bf16) (w : Vec Ideal S15x17 .f32) (b : Vec Ideal S1x15 .f32) (r : Fin 8192) (j : Fin 15) :
    (truncf .bf16 (maximumf (addf
        (matmul (F := Ideal) dot_S8192x17_S17x15_S8192x15_1_0_0_1_n_n none lhs
          (transpose S17x15 [1, 0] (truncf .bf16 w bitsLt_bf16_f32) transposes_S15x17_p1_0_S17x15)
          (constant (F := Ideal) S8192x15 .f32 0x00000000#32))
        (broadcastTo S8192x15 (shapeCast S1x15 b shapeCasts_S1x15_S1x15) broadcasts_S1x15_S8192x15))
      (broadcast S8192x15 (Scalar.ofBits (F := Ideal) .f32 0x00000000#32))) bitsLt_bf16_f32 : FVec Ideal S8192x15 .bf16) (ix2 r j)
      = hidden (mat w) (row b 0) (fun q => lhs (ix2 r q)) j := by
  rw [truncf_apply, maximumf_apply, addf_apply, broadcast_apply, mm17, shapeCast_self, broadcastTo_1b_ab_apply]
  show max (_ + _) (Ideal.ofBits .f32 0x00000000#32) = max ((∑ q : Fin 17, lhs (ix2 r q) * w (ix2 j q)) + b (ix2 0 j)) 0
  rw [Ideal.ofBits_zero_f32]
  congr 2
  refine Finset.sum_congr rfl fun q _ => ?_
  rw [transpose_ix2_apply, truncf_apply]

/-- A later hidden layer (15 → 15) at (r, j): the specification's hidden layer on row r of the block it multiplies. -/
theorem layer15 (lhs : FVec Ideal S8192x15 .bf16) (w : Vec Ideal S15x15 .f32) (b : Vec Ideal S1x15 .f32) (r : Fin 8192) (j : Fin 15) :
    (truncf .bf16 (maximumf (addf
        (matmul (F := Ideal) dot_S8192x15_S15x15_S8192x15_1_0_0_1_n_n none lhs
          (transpose S15x15 [1, 0] (truncf .bf16 w bitsLt_bf16_f32) transposes_S15x15_p1_0_S15x15)
          (constant (F := Ideal) S8192x15 .f32 0x00000000#32))
        (broadcastTo S8192x15 (shapeCast S1x15 b shapeCasts_S1x15_S1x15) broadcasts_S1x15_S8192x15))
      (broadcast S8192x15 (Scalar.ofBits (F := Ideal) .f32 0x00000000#32))) bitsLt_bf16_f32 : FVec Ideal S8192x15 .bf16) (ix2 r j)
      = hidden (mat w) (row b 0) (fun q => lhs (ix2 r q)) j := by
  rw [truncf_apply, maximumf_apply, addf_apply, broadcast_apply, mm15, shapeCast_self, broadcastTo_1b_ab_apply]
  show max (_ + _) (Ideal.ofBits .f32 0x00000000#32) = max ((∑ q : Fin 15, lhs (ix2 r q) * w (ix2 j q)) + b (ix2 0 j)) 0
  rw [Ideal.ofBits_zero_f32]
  congr 2
  refine Finset.sum_congr rfl fun q _ => ?_
  rw [transpose_ix2_apply, truncf_apply]

/-- The last layer (15 → 1, no maximum) at (r, 0): the specification's dense layer on row r of the block it multiplies. -/
theorem last15 (lhs : FVec Ideal S8192x15 .bf16) (w : Vec Ideal S1x15 .f32) (b : Vec Ideal S1x1 .f32) (r : Fin 8192) :
    (addf
        (matmul (F := Ideal) dot_S8192x15_S15x1_S8192x1_1_0_0_1_n_n none lhs
          (transpose S15x1 [1, 0] (truncf .bf16 w bitsLt_bf16_f32) transposes_S1x15_p1_0_S15x1)
          (constant (F := Ideal) S8192x1 .f32 0x00000000#32))
        (broadcastTo S8192x1 (shapeCast S1x1 b shapeCasts_S1x1_S1x1) broadcasts_S1x1_S8192x1) : FVec Ideal S8192x1 .f32) (ix2 r (0 : Fin 1))
      = dense (mat w) (row b 0) (fun q => lhs (ix2 r q)) 0 := by
  rw [addf_apply, mm1, shapeCast_self, broadcastTo_1b_ab_apply]
  show _ + _ = (∑ q : Fin 15, lhs (ix2 r q) * w (ix2 0 q)) + b (ix2 0 0)
  congr 1
  refine Finset.sum_congr rfl fun q _ => ?_
  rw [transpose_ix2_apply, truncf_apply]

/-! ## The stored block, row by row -/

/-- Row r of the stored block is the specification's network on row r of the loaded block of x. -/
theorem out_apply (X0 : S8192x17.Idx → Elt Ideal .f32) (X1 : S15x17.Idx → Elt Ideal .f32) (X2 : S1x15.Idx → Elt Ideal .f32)
    (X3 : S15x15.Idx → Elt Ideal .f32) (X4 : S1x15.Idx → Elt Ideal .f32) (X5 : S15x15.Idx → Elt Ideal .f32) (X6 : S1x15.Idx → Elt Ideal .f32)
    (X7 : S15x15.Idx → Elt Ideal .f32) (X8 : S1x15.Idx → Elt Ideal .f32) (X9 : S15x15.Idx → Elt Ideal .f32) (X10 : S1x15.Idx → Elt Ideal .f32)
    (X11 : S15x15.Idx → Elt Ideal .f32) (X12 : S1x15.Idx → Elt Ideal .f32) (X13 : S1x15.Idx → Elt Ideal .f32) (X14 : S1x1.Idx → Elt Ideal .f32)
    (r : Fin 8192) :
    Cert.KernelIdeal.Hand.out (F := Ideal) X0 X1 X2 X3 X4 X5 X6 X7 X8 X9 X10 X11 X12 X13 X14 (ix2 r (0 : Fin 1))
      = Cert.Mlp.net (mat X1) (row X2 0) (mat X3) (row X4 0) (mat X5) (row X6 0) (mat X7) (row X8 0) (mat X9) (row X10 0)
          (mat X11) (row X12 0) (mat X13) (row X14 0) (row X0 r) := by
  unfold out k0_pay3 k0_pay1 k0_pay2 net
  refine (last15 _ X13 X14 r).trans ?_
  refine congrArg (fun x => dense (mat X13) (row X14 0) x 0) (funext fun j6 => ?_)
  refine (layer15 _ X11 X12 r j6).trans ?_
  refine congrArg (fun x => hidden (mat X11) (row X12 0) x j6) (funext fun j5 => ?_)
  refine (layer15 _ X9 X10 r j5).trans ?_
  refine congrArg (fun x => hidden (mat X9) (row X10 0) x j5) (funext fun j4 => ?_)
  refine (layer15 _ X7 X8 r j4).trans ?_
  refine congrArg (fun x => hidden (mat X7) (row X8 0) x j4) (funext fun j3 => ?_)
  refine (layer15 _ X5 X6 r j3).trans ?_
  refine congrArg (fun x => hidden (mat X5) (row X6 0) x j3) (funext fun j2 => ?_)
  refine (layer15 _ X3 X4 r j2).trans ?_
  refine congrArg (fun x => hidden (mat X3) (row X4 0) x j2) (funext fun j1 => ?_)
  refine (layer17 _ X1 X2 r j1).trans ?_
  rfl

end Cert.PayNet

end
-- ==== Proof.RefNet.lean ====
/-
  The reference program computes the specification G: reading its result one operation at a time, each
  dot product with a transposed weight matrix is the inner product of a row with a row of the stored
  weights, each doubly broadcast bias is the bias vector read at the column, and each maximum with the
  broadcast zero constant is the positive part. One lemma per hidden layer, each resting on the previous.
-/
import proofs.«150531_j46153718563335_1_alg».proof.Proof.Gen.ReferenceIdeal.Read
import proofs.«150531_j46153718563335_1_alg».proof.Proof.Spec
import Idealize.ShloMosaic.Lib.ValueIdx
import Idealize.ShloMosaic.PureOps.Ideal.Laws

noncomputable section

open scoped BigOperators

namespace Cert.RefNet

open Cert.ReferenceIdeal Cert.ReferenceIdeal.Read Cert.Mlp Idealize.ShloMosaic Idealize.ShloMosaic.ValueIdx

variable (x0 : (⟨S4000000x17, .f32⟩ : BufTy).Contents (Elt Ideal)) (x1 : (⟨S15x17, .f32⟩ : BufTy).Contents (Elt Ideal))
  (x2 : (⟨S15, .f32⟩ : BufTy).Contents (Elt Ideal)) (x3 : (⟨S15x15, .f32⟩ : BufTy).Contents (Elt Ideal))
  (x4 : (⟨S15, .f32⟩ : BufTy).Contents (Elt Ideal)) (x5 : (⟨S15x15, .f32⟩ : BufTy).Contents (Elt Ideal))
  (x6 : (⟨S15, .f32⟩ : BufTy).Contents (Elt Ideal)) (x7 : (⟨S15x15, .f32⟩ : BufTy).Contents (Elt Ideal))
  (x8 : (⟨S15, .f32⟩ : BufTy).Contents (Elt Ideal)) (x9 : (⟨S15x15, .f32⟩ : BufTy).Contents (Elt Ideal))
  (x10 : (⟨S15, .f32⟩ : BufTy).Contents (Elt Ideal)) (x11 : (⟨S15x15, .f32⟩ : BufTy).Contents (Elt Ideal))
  (x12 : (⟨S15, .f32⟩ : BufTy).Contents (Elt Ideal)) (x13 : (⟨S1x15, .f32⟩ : BufTy).Contents (Elt Ideal))
  (x14 : (⟨S1, .f32⟩ : BufTy).Contents (Elt Ideal))

/-- Two rank-2 indices with the same coordinates are equal. -/
theorem idx2_ext {n0 n1 : Nat} (p q : (Sh2 n0 n1).Idx) (h0 : p 0 = q 0) (h1 : p 1 = q 1) : p = q := by
  funext a; match a with | ⟨0, _⟩ => exact h0 | ⟨1, _⟩ => exact h1

/-- Two rank-1 indices with the same coordinate are equal. -/
theorem idx1_ext {n : Nat} (p q : (Sh1 n).Idx) (h0 : p 0 = q 0) : p = q := by
  funext a; match a with | ⟨0, _⟩ => exact h0

/-- After the first layer: entry (i, j) is the first hidden layer on row i of the input, at j. -/
theorem v5_eq (i : Fin 4000000) (j : Fin 15) :
    val_main_v5 (F := Ideal) x0 x1 x2 (ix2 i j) = Mlp.hidden (mat x1) (vec x2) (row x0 i) j := by
  rw [val_main_v5_apply, val_main_v4_apply, val_main_v1_apply, val_main_v3_apply, val_main_v2_apply,
    val_main_call0_v0_apply, val_main_call0_cst_apply]
  simp only [val_main_v0_apply]
  unfold Mlp.hidden dense mat vec row
  rw [Ideal.maximumf_def, Ideal.addf_def, Ideal.ofBits_def, Ideal.ofBits_zero_f32]
  have e1 : ∀ k : Fin 17, lidx_main_v1 (ix2 i j) k = ix2 i k := fun k => idx2_ext _ _ rfl rfl
  have e2 : ∀ k : Fin 17, idx_main_v0 (ridx_main_v1 (ix2 i j) k) = ix2 j k := fun k => idx2_ext _ _ rfl rfl
  have e3 : idx_main_v2 (idx_main_v3 (ix2 i j)) = ix1 j := idx1_ext _ _ rfl
  simp only [e1, e2, e3]

/-- After the second layer: entry (i, j) is the second hidden layer applied to the first one's row, at j. -/
theorem v11_eq (i : Fin 4000000) (j : Fin 15) :
    val_main_v11 (F := Ideal) x0 x1 x2 x3 x4 (ix2 i j)
      = Mlp.hidden (mat x3) (vec x4) (Mlp.hidden (mat x1) (vec x2) (row x0 i)) j := by
  rw [val_main_v11_apply, val_main_v10_apply, val_main_v7_apply, val_main_v9_apply, val_main_v8_apply,
    val_main_call1_v0_apply, val_main_call1_cst_apply]
  have e1 : ∀ k : Fin 15, lidx_main_v7 (ix2 i j) k = ix2 i k := fun k => idx2_ext _ _ rfl rfl
  have e2 : ∀ k : Fin 15, idx_main_v6 (ridx_main_v7 (ix2 i j) k) = ix2 j k := fun k => idx2_ext _ _ rfl rfl
  have e3 : idx_main_v8 (idx_main_v9 (ix2 i j)) = ix1 j := idx1_ext _ _ rfl
  simp only [val_main_v6_apply, e1, e2, e3, v5_eq]
  rw [Ideal.maximumf_def, Ideal.addf_def, Ideal.ofBits_def, Ideal.ofBits_zero_f32]
  rfl

/-- After the third layer: entry (i, j) is the third hidden layer applied to the second one's row, at j. -/
theorem v17_eq (i : Fin 4000000) (j : Fin 15) :
    val_main_v17 (F := Ideal) x0 x1 x2 x3 x4 x5 x6 (ix2 i j)
      = Mlp.hidden (mat x5) (vec x6) (Mlp.hidden (mat x3) (vec x4) (Mlp.hidden (mat x1) (vec x2) (row x0 i))) j := by
  rw [val_main_v17_apply, val_main_v16_apply, val_main_v13_apply, val_main_v15_apply, val_main_v14_apply,
    val_main_call2_v0_apply, val_main_call2_cst_apply]
  have e1 : ∀ k : Fin 15, lidx_main_v13 (ix2 i j) k = ix2 i k := fun k => idx2_ext _ _ rfl rfl
  have e2 : ∀ k : Fin 15, idx_main_v12 (ridx_main_v13 (ix2 i j) k) = ix2 j k := fun k => idx2_ext _ _ rfl rfl
  have e3 : idx_main_v14 (idx_main_v15 (ix2 i j)) = ix1 j := idx1_ext _ _ rfl
  simp only [val_main_v12_apply, e1, e2, e3, v11_eq]
  rw [Ideal.maximumf_def, Ideal.addf_def, Ideal.ofBits_def, Ideal.ofBits_zero_f32]
  rfl

/-- After the fourth layer: entry (i, j) is the fourth hidden layer applied to the third one's row, at j. -/
theorem v23_eq (i : Fin 4000000) (j : Fin 15) :
    val_main_v23 (F := Ideal) x0 x1 x2 x3 x4 x5 x6 x7 x8 (ix2 i j)
      = Mlp.hidden (mat x7) (vec x8) (Mlp.hidden (mat x5) (vec x6) (Mlp.hidden (mat x3) (vec x4) (Mlp.hidden (mat x1) (vec x2) (row x0 i)))) j := by
  rw [val_main_v23_apply, val_main_v22_apply, val_main_v19_apply, val_main_v21_apply, val_main_v20_apply,
    val_main_call3_v0_apply, val_main_call3_cst_apply]
  have e1 : ∀ k : Fin 15, lidx_main_v19 (ix2 i j) k = ix2 i k := fun k => idx2_ext _ _ rfl rfl
  have e2 : ∀ k : Fin 15, idx_main_v18 (ridx_main_v19 (ix2 i j) k) = ix2 j k := fun k => idx2_ext _ _ rfl rfl
  have e3 : idx_main_v20 (idx_main_v21 (ix2 i j)) = ix1 j := idx1_ext _ _ rfl
  simp only [val_main_v18_apply, e1, e2, e3, v17_eq]
  rw [Ideal.maximumf_def, Ideal.addf_def, Ideal.ofBits_def, Ideal.ofBits_zero_f32]
  rfl

/-- After the fifth layer: entry (i, j) is the fifth hidden layer applied to the fourth one's row, at j. -/
theorem v29_eq (i : Fin 4000000) (j : Fin 15) :
    val_main_v29 (F := Ideal) x0 x1 x2 x3 x4 x5 x6 x7 x8 x9 x10 (ix2 i j)
      = Mlp.hidden (mat x9) (vec x10) (Mlp.hidden (mat x7) (vec x8) (Mlp.hidden (mat x5) (vec x6) (Mlp.hidden (mat x3) (vec x4) (Mlp.hidden (mat x1) (vec x2) (row x0 i))))) j := by
  rw [val_main_v29_apply, val_main_v28_apply, val_main_v25_apply, val_main_v27_apply, val_main_v26_apply,
    val_main_call4_v0_apply, val_main_call4_cst_apply]
  have e1 : ∀ k : Fin 15, lidx_main_v25 (ix2 i j) k = ix2 i k := fun k => idx2_ext _ _ rfl rfl
  have e2 : ∀ k : Fin 15, idx_main_v24 (ridx_main_v25 (ix2 i j) k) = ix2 j k := fun k => idx2_ext _ _ rfl rfl
  have e3 : idx_main_v26 (idx_main_v27 (ix2 i j)) = ix1 j := idx1_ext _ _ rfl
  simp only [val_main_v24_apply, e1, e2, e3, v23_eq]
  rw [Ideal.maximumf_def, Ideal.addf_def, Ideal.ofBits_def, Ideal.ofBits_zero_f32]
  rfl

/-- After the sixth layer: entry (i, j) is the sixth hidden layer applied to the fifth one's row, at j. -/
theorem v35_eq (i : Fin 4000000) (j : Fin 15) :
    val_main_v35 (F := Ideal) x0 x1 x2 x3 x4 x5 x6 x7 x8 x9 x10 x11 x12 (ix2 i j)
      = Mlp.hidden (mat x11) (vec x12) (Mlp.hidden (mat x9) (vec x10) (Mlp.hidden (mat x7) (vec x8) (Mlp.hidden (mat x5) (vec x6) (Mlp.hidden (mat x3) (vec x4) (Mlp.hidden (mat x1) (vec x2) (row x0 i)))))) j := by
  rw [val_main_v35_apply, val_main_v34_apply, val_main_v31_apply, val_main_v33_apply, val_main_v32_apply,
    val_main_call5_v0_apply, val_main_call5_cst_apply]
  have e1 : ∀ k : Fin 15, lidx_main_v31 (ix2 i j) k = ix2 i k := fun k => idx2_ext _ _ rfl rfl
  have e2 : ∀ k : Fin 15, idx_main_v30 (ridx_main_v31 (ix2 i j) k) = ix2 j k := fun k => idx2_ext _ _ rfl rfl
  have e3 : idx_main_v32 (idx_main_v33 (ix2 i j)) = ix1 j := idx1_ext _ _ rfl
  simp only [val_main_v30_apply, e1, e2, e3, v29_eq]
  rw [Ideal.maximumf_def, Ideal.addf_def, Ideal.ofBits_def, Ideal.ofBits_zero_f32]
  rfl

/-- The result: entry (i, 0) is the last dense layer, of width one, on the sixth hidden layer's row. -/
theorem v40_eq (i : Fin 4000000) :
    val_main_v40 (F := Ideal) x0 x1 x2 x3 x4 x5 x6 x7 x8 x9 x10 x11 x12 x13 x14 (ix2 i (0 : Fin 1))
      = net (mat x1) (vec x2) (mat x3) (vec x4) (mat x5) (vec x6) (mat x7) (vec x8) (mat x9) (vec x10) (mat x11) (vec x12) (mat x13) (vec x14) (row x0 i) := by
  rw [val_main_v40_apply, val_main_v37_apply, val_main_v39_apply, val_main_v38_apply]
  have e1 : ∀ k : Fin 15, lidx_main_v37 (ix2 i (0 : Fin 1)) k = ix2 i k := fun k => idx2_ext _ _ rfl rfl
  have e2 : ∀ k : Fin 15, idx_main_v36 (ridx_main_v37 (ix2 i (0 : Fin 1)) k) = ix2 (0 : Fin 1) k :=
    fun k => idx2_ext _ _ rfl rfl
  have e3 : idx_main_v38 (idx_main_v39 (ix2 i (0 : Fin 1))) = ix1 (0 : Fin 1) := idx1_ext _ _ rfl
  simp only [val_main_v36_apply, e1, e2, e3, v35_eq]
  rw [Ideal.addf_def]
  rfl

/-- The reference program's result is the specification. -/
theorem ref_is_G :
    Cert.ReferenceIdeal.Read.val_main_v40 (F := Ideal) x0 x1 x2 x3 x4 x5 x6 x7 x8 x9 x10 x11 x12 x13 x14
      = Cert.Mlp.G x0 x1 x2 x3 x4 x5 x6 x7 x8 x9 x10 x11 x12 x13 x14 := by
  funext j
  obtain ⟨a, b, rfl⟩ : ∃ (a : Fin 4000000) (b : Fin 1), j = ix2 a b := ⟨j 0, j 1, eq_ix2 j⟩
  obtain rfl : b = 0 := Subsingleton.elim _ _
  rw [v40_eq]
  rfl

end Cert.RefNet

end
-- ==== Proof.lean ====
/-
  The certificate of a seven-layer perceptron evaluated row by row.

  Both programs send a matrix x of 4 000 000 rows and 17 columns, with weights w0 … w6 (stored output-major) and biases
  b0 … b6, to the column whose entry i is the network on row i of x: six times a dense layer followed by max(·, 0),
  then a dense layer of width one, where a dense layer sends a row v to the row with entries (∑ q, v q * w j q) + b j.
  The reference computes it on the whole matrix at once (a transposition of each weight matrix, a product, a
  broadcast bias, a maximum with zero). The kernel computes it on blocks of 8192 rows over a grid of 489 points,
  the weights and the biases (reshaped to one-row matrices beforehand) held whole at every point; it rounds its
  operands to a shorter float format before each product, which at the exact instance changes nothing.

  Why the two agree over the extended reals: a product of matrices is, entry by entry, the same finite sum on both
  sides, and neither side rearranges it, so no finiteness of the inputs is used. Why the tiling is harmless:
  4 000 000 = 488 * 8192 + 2304, so the last block of x overhangs the array and its buffer's last 5888 rows hold
  words nothing names; but row r of a block's result depends on row r of the block only, so the 2304 rows
  that are written back are the network on the array's rows, whatever fills the rest, and the 489 written blocks
  cover the result array.

  The frames: each program runs to its end, faults nowhere and leaves its argument arrays as launched. For the
  kernel as printed (the word-level instance) nothing is said of the result array; for the idealized kernel the
  same run also yields the result array; the reference's frame is its run with the result dropped. The idealized
  kernel is the printed kernel read at the exact instance (no operation was rewritten), so the second-to-last claim
  is trivial.
-/
import proofs.«150531_j46153718563335_1_alg».proof.Defs
import proofs.«150531_j46153718563335_1_alg».proof.Proof.Gen.Kernel
import proofs.«150531_j46153718563335_1_alg».proof.Proof.Gen.KernelIdeal
import proofs.«150531_j46153718563335_1_alg».proof.Proof.Gen.ReferenceIdeal
import proofs.«150531_j46153718563335_1_alg».proof.Proof.Gen.Pre_finite_inputs
import proofs.«150531_j46153718563335_1_alg».proof.Proof.KbRun
import proofs.«150531_j46153718563335_1_alg».proof.Proof.KiRun
import proofs.«150531_j46153718563335_1_alg».proof.Proof.KiValue
import proofs.«150531_j46153718563335_1_alg».proof.Proof.KiCover
import proofs.«150531_j46153718563335_1_alg».proof.Proof.PayNet
import proofs.«150531_j46153718563335_1_alg».proof.Proof.RefNet
import Idealize.ShloMosaic.Adequacy
import Idealize.ShloMosaic.Init

noncomputable section

namespace Cert.Proof

open Idealize.ShloMosaic Idealize.SL.Sem

/-- Row r of the block the body stores is the network on row r of the block of x it loaded. -/
theorem rowLaw : Cert.KernelIdeal.Hand.RowLaw := Cert.PayNet.out_apply

/-- The rows of a stored block that lie inside the array do not depend on what fills the buffer of x below the
    array's end. -/
theorem rowsLocal (m : (ℓ : Loc Cert.KernelIdeal.nD Cert.KernelIdeal.τ Cert.KernelIdeal.sig) → Buf (Elt Ideal) ℓ)
    (c : Dev Cert.KernelIdeal.nD) (t : Fin Cert.KernelIdeal.cfg0.N) (d : Cert.KernelIdeal.S8192x17.Idx → Elt Ideal .f32) :
    Cert.KernelIdeal.win0_15.cut (Cert.KernelIdeal.grid0.coords t) (Cert.KernelIdeal.Hand.outAt m c t d)
      = Cert.KernelIdeal.win0_15.cut (Cert.KernelIdeal.grid0.coords t) (Cert.KernelIdeal.Hand.outAt m c t Cert.KernelIdeal.Hand.zfill) :=
  Cert.KernelIdeal.Hand.cut_outAt_congr rowLaw m c t d

/-- After the 489 write-backs the result array is the network on every row of x: each written block is that
    function read through the block, and the blocks cover the array. -/
theorem resultArray (m : (ℓ : Loc Cert.KernelIdeal.nD Cert.KernelIdeal.τ Cert.KernelIdeal.sig) → Buf (Elt Ideal) ℓ)
    (c : Dev Cert.KernelIdeal.nD) :
    (Cert.KernelIdeal.Hand.dats (F := Ideal) m 0 c).arrAt 15 Cert.KernelIdeal.cfg0.N = Cert.KernelIdeal.Hand.GK m c :=
  (Cert.KernelIdeal.Hand.dats (F := Ideal) m 0 c).arrAt_eq_of_cover 15 (Cert.KernelIdeal.Hand.GK m c)
    (fun t _ => Cert.KernelIdeal.Hand.flushed15_eq rowLaw m c t) Cert.KernelIdeal.Hand.cover15

theorem frame_k : Cert.frame_Kernel := fun m ρ _ => Cert.Kernel.Hand.frame (F := Bits) m ρ

theorem frame_ki : Cert.frame_KernelIdeal := fun m ρ _ =>
  Cert.KernelIdeal.Gen.frame_of m ρ (Cert.KernelIdeal.Hand.dats m) (Cert.KernelIdeal.Hand.A_eq m)
    (Cert.KernelIdeal.Hand.run_main (F := Ideal) m ρ (rowsLocal m))

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to restate. -/
theorem preserves : Cert.preserves_Kernel_KernelIdeal := trivial

/-- From memories that agree on the fifteen arguments both runs end with the result array at the network on
    every row of x. -/
theorem algebraic : Cert.algebraic_KernelIdeal_ReferenceIdeal := by
  intro m ρ m' ρ' _ hagree
  refine ⟨fun c => Cert.KernelIdeal.Hand.GK m c, ?_, ?_⟩
  · exact (θ_run Cert.KernelIdeal.defs _ _).mono (fun _ h c => ⟨(h c).1.trans (resultArray m c), (h c).2⟩)
      (Cert.KernelIdeal.Hand.run_value (F := Ideal) m ρ (rowsLocal m))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v40_eq, Cert.RefNet.ref_is_G, h0, h1, h2, h3, h4, h5, h6, h7, h8, h9, h10, h11, h12, h13, h14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
